-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128x64 .f32) (main_arg15 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 118
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S50000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S1x800000, .i32⟩
  | .hbm, ⟨21, _⟩ => ⟨S800000, .i32⟩
  | .hbm, ⟨22, _⟩ => ⟨S850000, .i32⟩
  | .hbm, ⟨23, _⟩ => ⟨S_, .f32⟩
  | .hbm, ⟨24, _⟩ => ⟨S850000, .f32⟩
  | .hbm, ⟨25, _⟩ => ⟨S_, .f32⟩
  | .hbm, ⟨26, _⟩ => ⟨S50000, .f32⟩
  | .hbm, ⟨27, _⟩ => ⟨S850000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000, .f32⟩
  | .hbm, ⟨55, _⟩ => ⟨S850000, .f32⟩
  | .hbm, ⟨56, _⟩ => ⟨S850000x1, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x128, .f32⟩
  | .hbm, ⟨67, _⟩ => ⟨S850000x128, .f32⟩
  | .hbm, ⟨68, _⟩ => ⟨S_, .f32⟩
  | .hbm, ⟨69, _⟩ => ⟨S50000x128, .f32⟩
  | .hbm, ⟨70, _⟩ => ⟨S850000x1, .i32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S50000x128, .f32⟩
  | .hbm, ⟨78, _⟩ => ⟨S850000x1, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000x128, .f32⟩
  | .hbm, ⟨88, _⟩ => ⟨S850000x128, .f32⟩
  | .hbm, ⟨89, _⟩ => ⟨S850000x128, .f32⟩
  | .hbm, ⟨90, _⟩ => ⟨S_, .f32⟩
  | .hbm, ⟨91, _⟩ => ⟨S50000x128, .f32⟩
  | .hbm, ⟨92, _⟩ => ⟨S850000x1, .i32⟩
  | .hbm, ⟨93, _⟩ => ⟨S50000x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S50000x128, .f32⟩
  | .hbm, ⟨100, _⟩ => ⟨S850000x1, .f32⟩
  | .hbm, ⟨101, _⟩ => ⟨S_, .i32⟩
  | .hbm, ⟨102, _⟩ => ⟨S850000, .i32⟩
  | .hbm, ⟨103, _⟩ => ⟨S850000, .i1⟩
  | .hbm, ⟨104, _⟩ => ⟨S_, .i32⟩
  | .hbm, ⟨105, _⟩ => ⟨S850000, .i32⟩
  | .hbm, ⟨106, _⟩ => ⟨S850000, .i32⟩
  | .hbm, ⟨107, _⟩ => ⟨S850000, .i32⟩
  | .hbm, ⟨108, _⟩ => ⟨S850000x1, .i32⟩
  | .hbm, ⟨109, _⟩ => ⟨S850000x128, .f32⟩
  | .hbm, ⟨110, _⟩ => ⟨S850000x128, .f32⟩
  | .hbm, ⟨111, _⟩ => ⟨S850000x128, .f32⟩
  | .hbm, ⟨112, _⟩ => ⟨S_, .f32⟩
  | .hbm, ⟨113, _⟩ => ⟨S50000x128, .f32⟩
  | .hbm, ⟨114, _⟩ => ⟨S850000x1, .i32⟩
  | .hbm, ⟨115, _⟩ => ⟨S50000x128, .f32⟩
  | .hbm, ⟨116, _⟩ => ⟨S1x64, .f32⟩
  | .hbm, ⟨117, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_12 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_14 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v42) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v47) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v48) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v61) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v66) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v67) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v80) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v81) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v82) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 166
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x64, .f32⟩
  | 15 => ⟨S64, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x128, .f32⟩
  | 57 => ⟨S850000x1, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S50000x128, .f32⟩
  | 102 => ⟨S850000x1, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x128, .f32⟩
  | 112 => ⟨S850000x128, .f32⟩
  | 113 => ⟨S850000x128, .f32⟩
  | 114 => ⟨S_, .f32⟩
  | 115 => ⟨S50000x128, .f32⟩
  | 116 => ⟨S850000x1, .i32⟩
  | 117 => ⟨S50000x128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S128, .f32⟩
  | 126 => ⟨S128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x128, .f32⟩
  | 18 => ⟨S50000x64, .f32⟩
  | 19 => ⟨S850000x1, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000x64, .f32⟩
  | 29 => ⟨S850000x64, .f32⟩
  | 30 => ⟨S850000x64, .f32⟩
  | 31 => ⟨S_, .f32⟩
  | 32 => ⟨S50000x64, .f32⟩
  | 33 => ⟨S850000x1, .i32⟩
  | 34 => ⟨S50000x64, .f32⟩
  | 35 => ⟨S1x64, .f32⟩
  | 36 => ⟨S50000x64, .f32⟩
  | 37 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_call1_v5 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_10 : Ref sig .tc := ⟨.hbm, 103, rfl⟩
abbrev main_v65 : Ref sig .tc := ⟨.hbm, 104, rfl⟩
abbrev main_v66 : Ref sig .tc := ⟨.hbm, 105, rfl⟩
abbrev main_c_11 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_12 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_13 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_call2_v0 : Ref sig .tc := ⟨.hbm, 137, rfl⟩
abbrev main_call2_v1 : Ref sig .tc := ⟨.hbm, 138, rfl⟩
abbrev main_call2_cst : Ref sig .tc := ⟨.hbm, 139, rfl⟩
abbrev main_call2_v2 : Ref sig .tc := ⟨.hbm, 140, rfl⟩
abbrev main_call2_v3 : Ref sig .tc := ⟨.hbm, 141, rfl⟩
abbrev main_call2_cst_0 : Ref sig .tc := ⟨.hbm, 142, rfl⟩
abbrev main_call2_v4 : Ref sig .tc := ⟨.hbm, 143, rfl⟩
abbrev main_call2_v5 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_14 : Ref sig .tc := ⟨.hbm, 148, rfl⟩
abbrev main_v98 : Ref sig .tc := ⟨.hbm, 149, rfl⟩
abbrev main_v99 : Ref sig .tc := ⟨.hbm, 150, rfl⟩
abbrev main_c_15 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_16 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  A three-layer graph convolution on the extended reals, written once for both programs.

  Every layer sends node features `f` (one row per node) to `act (P + b)` where the pre-activation `P` combines two linear
  maps: the neighbourhood sum `(agg f) r = ∑_{e lands on r} n e · f (row e)` over the edge list (a gather of rows, a scaling
  by the edge weight `n`, a scatter-add onto the target node) and the product with a weight matrix `W`.  One program
  aggregates first and multiplies after, the other multiplies first and aggregates after; both orders are named here
  (`kerLayer`, `refLayer`), over the same aggregation, so that what remains to compare is the order alone.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- Node features: one row of `C` numbers per node. -/
abbrev Feat (C : Nat) : Type := (⟨2, ![50000, C]⟩ : Shape).Idx → EReal
/-- A weight matrix from 128 features to `C`. -/
abbrev Wt (C : Nat) : Type := (⟨2, ![128, C]⟩ : Shape).Idx → EReal
/-- A per-feature parameter laid out as one row. -/
abbrev Row (C : Nat) : Type := (⟨2, ![1, C]⟩ : Shape).Idx → EReal
/-- A per-feature parameter as a plain vector. -/
abbrev Vc (C : Nat) : Type := (⟨1, ![C]⟩ : Shape).Idx → EReal
/-- One signed 32-bit node number per edge, as a column. -/
abbrev EdgeIdx : Type := IVec (⟨2, ![850000, 1]⟩ : Shape) 32
/-- One weight per edge. -/
abbrev EdgeW : Type := (⟨1, ![850000]⟩ : Shape).Idx → EReal

/-- The variance guard of the normalisation: the binary value both programs carry. -/
def eps : EReal := Ideal.ofBits .f32 0x3727C5AC#32

/-- Shift by the bias, centre, scale by the inverse deviation and the gain, shift again, then `y · σ(y)`. -/
def act (h b mu v g be : EReal) : EReal :=
  ((h + b - mu) * Ideal.rsqrt (v + eps) * g + be) * Ideal.logistic ((h + b - mu) * Ideal.rsqrt (v + eps) * g + be)

/-- Row `r` of `A` against column `c` of `W`. -/
def dotAt {C : Nat} (A : Feat 128) (W : Wt C) (r : Fin 50000) (c : Fin C) : EReal :=
  ∑ k : Fin 128, A (ix2 r k) * W (ix2 k c)

/-- The product `A · W` as an array. -/
def mm {C : Nat} (A : Feat 128) (W : Wt C) : Feat C := fun i => dotAt A W (i 0) (i 1)

/-- A dense layer on rows: product, bias, normalisation, activation; the parameters as `[1, 128]` rows. -/
def denseRows (A : Feat 128) (W : Wt 128) (b g be mu v : Row 128) : Feat 128 :=
  fun i => act (dotAt A W (i 0) (i 1)) (b (ix2 0 (i 1))) (mu (ix2 0 (i 1))) (v (ix2 0 (i 1))) (g (ix2 0 (i 1))) (be (ix2 0 (i 1)))

/-- The last dense layer on rows: product and bias only. -/
def lastRows (A : Feat 128) (W : Wt 64) (b : Row 64) : Feat 64 :=
  fun i => dotAt A W (i 0) (i 1) + b (ix2 0 (i 1))

/-- A vector laid out as one row. -/
def asRow {C : Nat} (b : Vc C) : Row C := fun i => b (ix1 (i 1))

/-- Scatter of edge rows onto node rows, 128 wide: the row index is read off the column of node numbers, the feature kept. -/
def sd128 : ScatterDims (⟨2, ![50000, 128]⟩ : Shape) (⟨2, ![850000, 1]⟩ : Shape) (⟨2, ![850000, 128]⟩ : Shape) :=
  { updateWindowDims := [1], insertedWindowDims := [0], scatterDimsToOperandDims := [0], indexVectorDim := 1 }
/-- The same scatter, 64 wide. -/
def sd64 : ScatterDims (⟨2, ![50000, 64]⟩ : Shape) (⟨2, ![850000, 1]⟩ : Shape) (⟨2, ![850000, 64]⟩ : Shape) :=
  { updateWindowDims := [1], insertedWindowDims := [0], scatterDimsToOperandDims := [0], indexVectorDim := 1 }
/-- Gather of node rows along the edge list, 128 wide. -/
def gd128 : GatherDims (⟨2, ![50000, 128]⟩ : Shape) (⟨2, ![850000, 1]⟩ : Shape) (⟨2, ![850000, 128]⟩ : Shape) :=
  { offsetDims := [1], collapsedSliceDims := [0], operandBatchingDims := [], startIndicesBatchingDims := [],
    startIndexMap := [0], indexVectorDim := 1, sliceSizes := ![1, 128] }
/-- The same gather, 64 wide. -/
def gd64 : GatherDims (⟨2, ![50000, 64]⟩ : Shape) (⟨2, ![850000, 1]⟩ : Shape) (⟨2, ![850000, 64]⟩ : Shape) :=
  { offsetDims := [1], collapsedSliceDims := [0], operandBatchingDims := [], startIndicesBatchingDims := [],
    startIndexMap := [0], indexVectorDim := 1, sliceSizes := ![1, 64] }

/-- The neighbourhood sum, 128 wide: gather the source rows, scale each by its edge weight, add onto the target rows. -/
def agg128 (src dst : EdgeIdx) (n : EdgeW) (f : Feat 128) : Feat 128 :=
  Ideal.hostScatterAdd sd128 (fun _ => 0) dst (fun j => n (ix1 (j 0)) * Host.gather gd128 f src j)

/-- The neighbourhood sum, 64 wide. -/
def agg64 (src dst : EdgeIdx) (n : EdgeW) (f : Feat 64) : Feat 64 :=
  Ideal.hostScatterAdd sd64 (fun _ => 0) dst (fun j => n (ix1 (j 0)) * Host.gather gd64 f src j)

/-- A hidden layer, aggregating first: `act ((agg f) · W + b)`. -/
def kerLayer (src dst : EdgeIdx) (n : EdgeW) (f : Feat 128) (W : Wt 128) (b g be mu v : Vc 128) : Feat 128 :=
  denseRows (agg128 src dst n f) W (asRow b) (asRow g) (asRow be) (asRow mu) (asRow v)

/-- A hidden layer, multiplying first: `act (agg (f · W) + b)`. -/
def refLayer (src dst : EdgeIdx) (n : EdgeW) (f : Feat 128) (W : Wt 128) (b g be mu v : Vc 128) : Feat 128 :=
  fun i => act (agg128 src dst n (mm f W) i) (b (ix1 (i 1))) (mu (ix1 (i 1))) (v (ix1 (i 1))) (g (ix1 (i 1))) (be (ix1 (i 1)))

/-- The network, aggregating first in every layer. -/
def kerOut (src dst : EdgeIdx) (n : EdgeW) (x : Feat 128) (W1 : Wt 128) (b1 g1 be1 mu1 v1 : Vc 128)
    (W2 : Wt 128) (b2 g2 be2 mu2 v2 : Vc 128) (W3 : Wt 64) (b3 : Vc 64) : Feat 64 :=
  lastRows (agg128 src dst n (kerLayer src dst n (kerLayer src dst n x W1 b1 g1 be1 mu1 v1) W2 b2 g2 be2 mu2 v2)) W3 (asRow b3)

/-- The network, multiplying first in every layer. -/
def refOut (src dst : EdgeIdx) (n : EdgeW) (x : Feat 128) (W1 : Wt 128) (b1 g1 be1 mu1 v1 : Vc 128)
    (W2 : Wt 128) (b2 g2 be2 mu2 v2 : Vc 128) (W3 : Wt 64) (b3 : Vc 64) : Feat 64 :=
  fun i => agg64 src dst n (mm (refLayer src dst n (refLayer src dst n x W1 b1 g1 be1 mu1 v1) W2 b2 g2 be2 mu2 v2) W3) i
    + b3 (ix1 (i 1))

end Cert.Gcn

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.RegionValue.lean ====
/-
  What the three kernel regions of the graph convolution compute, as arrays.

  Each of the first two regions applies one dense layer to the aggregated features it finds: it cuts the
  50000 rows into ten blocks of 5000, and on block `t` multiplies the block by the weight matrix, adds the bias row,
  normalises with the mean, variance, gain and shift rows, and applies `y · σ(y)`.  The third region multiplies and adds
  the bias only.  An entry `(r, q)` of the result depends on row `r` of the features, column `q` of the weights and
  entry `q` of each parameter row, and row `r` lies in block `r / 5000`; so the array a region leaves is the whole-array
  function `Cert.Gcn.denseRows` (or `Cert.Gcn.lastRows`) of the arrays it found.
-/
import proofs.«115181_j44435731644444_1_alg».proof.Proof.Gen.KernelIdeal.Frame
import proofs.«115181_j44435731644444_1_alg».proof.Proof.Spec
import proofs.«115181_j44435731644444_1_alg».proof.Proof.LibRowOps
import Idealize.ShloMosaic.Lib.Pipeline.Value
import Idealize.ShloMosaic.Lib.ValueLayout
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## The 128-wide product's dimension numbers, coordinate by coordinate -/

/-- The 128-wide product keeps the output's row as the left operand's row … -/
theorem dotA_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … contracts the left operand's column … -/
theorem dotA_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- … against the right operand's row … -/
theorem dotA_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the output's column as the right operand's column. -/
theorem dotA_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The reciprocal square root of a vector is taken entry by entry. -/
theorem rsqrt_apply {s : Shape} {φ : FTy} (a : FVec Ideal s φ) (i : s.Idx) : rsqrt a i = Ideal.rsqrt (a i) := rfl
/-- The logistic function of a vector is taken entry by entry. -/
theorem logistic_apply {s : Shape} {φ : FTy} (a : FVec Ideal s φ) (i : s.Idx) : logistic a i = Ideal.logistic (a i) := rfl

/-! ## A dense layer's block at an entry -/

/-- What the dense-layer body stores, at row `p` and column `q` of its block: the row of the feature block against the
    column of the weights, then bias, normalisation and activation with entry `q` of each parameter row. -/
theorem dense_payload (x0 : Vec Ideal S5000x128 .f32) (x1 : Vec Ideal S128x128 .f32)
    (x2 x3 x4 x5 x6 : Vec Ideal S1x128 .f32) (p : Fin 5000) (q : Fin 128) :
    k0_pay1 (F := Ideal) x0 x1 x2 x5 x6 x3 x4 (ix2 p q)
      = Cert.Gcn.act (∑ k : Fin 128, x0 (ix2 p k) * x1 (ix2 k q)) (x2 (ix2 0 q)) (x5 (ix2 0 q)) (x6 (ix2 0 q))
          (x3 (ix2 0 q)) (x4 (ix2 0 q)) := by
  unfold k0_pay1
  simp only [shapeCast_self, mulf_apply, addf_apply, subf_apply, logistic_apply, rsqrt_apply, broadcast_apply,
    broadcastTo_1b_ab_apply, truncf_apply, Ideal.ofBits_def,
    Cert.RowOps.matmul_zero_entry dot_S5000x128_S128x128_S5000x128_1_0_0_1_n_n rfl rfl dotA_l0 dotA_l1 dotA_r0 dotA_r1]
  rfl

/-- Zero offsets, however spelt. -/
theorem hz : (![0, 0] : Fin 2 → Nat) = fun _ => 0 := funext fun a => by fin_cases a <;> rfl

/-- Two functions of a matrix index agree when they agree at every row and column. -/
theorem funext_ix2 {a b : ℕ} {α : Type} {f g : (⟨2, ![a, b]⟩ : Shape).Idx → α}
    (h : ∀ (p : Fin a) (q : Fin b), f (ix2 p q) = g (ix2 p q)) : f = g :=
  funext fun j => by rw [eq_ix2 j]; exact h _ _

/-- The block the dense-layer body leaves, at row `p` and column `q`: its one store covers the block, and its loads read
    the whole staging buffers. -/
theorem dense_block (x0 : Vec Ideal S5000x128 .f32) (x1 : Vec Ideal S128x128 .f32)
    (x2 x3 x4 x5 x6 : Vec Ideal S1x128 .f32) (p : Fin 5000) (q : Fin 128) :
    out0_7 (F := Ideal) x0 x1 x2 x3 x4 x5 x6 (ix2 p q)
      = Cert.Gcn.act (∑ k : Fin 128, x0 (ix2 p k) * x1 (ix2 k q)) (x2 (ix2 0 q)) (x5 (ix2 0 q)) (x6 (ix2 0 q))
          (x3 (ix2 0 q)) (x4 (ix2 0 q)) := by
  unfold out0_7
  rw [View.canon_unit_zero hz]
  simp only [View.ld_unit_zero (S := S5000x128) hz, View.ld_unit_zero (S := S128x128) hz, View.ld_unit_zero (S := S1x128) hz]
  exact dense_payload x0 x1 x2 x3 x4 x5 x6 p q

/-- A block whose row `p` is row `r` of the features, beside the whole weight matrix and parameter rows, is sent to row
    `r` of the dense layer. -/
theorem dense_block_eq (A : Cert.Gcn.Feat 128) (W : Cert.Gcn.Wt 128) (b g be mu v : Cert.Gcn.Row 128)
    (x0 : Vec Ideal S5000x128 .f32) (x1 : Vec Ideal S128x128 .f32) (x2 x3 x4 x5 x6 : Vec Ideal S1x128 .f32)
    (r : Fin 50000) (p : Fin 5000) (q : Fin 128)
    (h0 : ∀ k : Fin 128, x0 (ix2 p k) = A (ix2 r k)) (h1 : ∀ k : Fin 128, x1 (ix2 k q) = W (ix2 k q))
    (h2 : x2 (ix2 0 q) = b (ix2 0 q)) (h3 : x3 (ix2 0 q) = g (ix2 0 q)) (h4 : x4 (ix2 0 q) = be (ix2 0 q))
    (h5 : x5 (ix2 0 q) = mu (ix2 0 q)) (h6 : x6 (ix2 0 q) = v (ix2 0 q)) :
    out0_7 (F := Ideal) x0 x1 x2 x3 x4 x5 x6 (ix2 p q) = Cert.Gcn.denseRows A W b g be mu v (ix2 r q) := by
  rw [dense_block, h2, h3, h4, h5, h6]
  simp only [h0, h1]
  rfl

/-- The second dense layer's body is the first's: the same function of its blocks. -/
theorem out1_7_eq (x0 : Vec Ideal S5000x128 .f32) (x1 : Vec Ideal S128x128 .f32) (x2 x3 x4 x5 x6 : Vec Ideal S1x128 .f32) :
    out1_7 (F := Ideal) x0 x1 x2 x3 x4 x5 x6 = out0_7 x0 x1 x2 x3 x4 x5 x6 := rfl

/-- So it sends a block whose row `p` is row `r` of the features to row `r` of the dense layer. -/
theorem dense_block_eq1 (A : Cert.Gcn.Feat 128) (W : Cert.Gcn.Wt 128) (b g be mu v : Cert.Gcn.Row 128)
    (x0 : Vec Ideal S5000x128 .f32) (x1 : Vec Ideal S128x128 .f32) (x2 x3 x4 x5 x6 : Vec Ideal S1x128 .f32)
    (r : Fin 50000) (p : Fin 5000) (q : Fin 128)
    (h0 : ∀ k : Fin 128, x0 (ix2 p k) = A (ix2 r k)) (h1 : ∀ k : Fin 128, x1 (ix2 k q) = W (ix2 k q))
    (h2 : x2 (ix2 0 q) = b (ix2 0 q)) (h3 : x3 (ix2 0 q) = g (ix2 0 q)) (h4 : x4 (ix2 0 q) = be (ix2 0 q))
    (h5 : x5 (ix2 0 q) = mu (ix2 0 q)) (h6 : x6 (ix2 0 q) = v (ix2 0 q)) :
    out1_7 (F := Ideal) x0 x1 x2 x3 x4 x5 x6 (ix2 p q) = Cert.Gcn.denseRows A W b g be mu v (ix2 r q) :=
  (congrFun (out1_7_eq x0 x1 x2 x3 x4 x5 x6) (ix2 p q)).trans
    (dense_block_eq A W b g be mu v x0 x1 x2 x3 x4 x5 x6 r p q h0 h1 h2 h3 h4 h5 h6)

/-! ## Region 0: the first dense layer -/

section Region0
variable (V : (c : Dev nD) → (b : Ref sig .tc) → Buf (Elt Ideal) ((c : Thread nD τ).loc b))

/-- The index maps of region 0, decided over its ten points: the feature window and the result window take block `t`
    of the rows, every other window its one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of the feature block at point `t` is row `5000 t + p` of the features. -/
theorem feat_block0 (c : Dev nD) (t : Fin cfg0.N) (p : Fin 5000) (k : Fin 128) (r : Fin 50000)
    (hr : r.val = 5000 * t.val + p.val) :
    (iblk0 V c 0 t : Vec Ideal S5000x128 .f32) (ix2 p k) = (V c main_v42 : Cert.Gcn.Feat 128) (ix2 r k) := by
  obtain ⟨e0, e1, -⟩ := idx_facts0 t
  unfold iblk0
  rw [View.read_apply]
  show V c main_v42 _ = V c main_v42 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight window's block is the weight matrix at every point. -/
theorem wt_block0 (c : Dev nD) (t : Fin cfg0.N) (k : Fin 128) (q : Fin 128) :
    (iblk0 V c 1 t : Vec Ideal S128x128 .f32) (ix2 k q) = (V c main_arg2 : Cert.Gcn.Wt 128) (ix2 k q) := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Each parameter window's block is its parameter row at every point. -/
theorem row_block0_2 (c : Dev nD) (t : Fin cfg0.N) (q : Fin 128) :
    (iblk0 V c 2 t : Vec Ideal S1x128 .f32) (ix2 0 q) = (V c main_v43 : Cert.Gcn.Row 128) (ix2 0 q) := by
  obtain ⟨-, -, -, -, e0, e1, -⟩ := idx_facts0 t
  unfold iblk0
  rw [View.read_apply]
  show V c main_v43 _ = V c main_v43 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

theorem row_block0_3 (c : Dev nD) (t : Fin cfg0.N) (q : Fin 128) :
    (iblk0 V c 3 t : Vec Ideal S1x128 .f32) (ix2 0 q) = (V c main_v44 : Cert.Gcn.Row 128) (ix2 0 q) := by
  obtain ⟨-, -, -, -, -, -, e0, e1, -⟩ := idx_facts0 t
  unfold iblk0
  rw [View.read_apply]
  show V c main_v44 _ = V c main_v44 _
  congr 1
  funext a
  apply Fin.ext
  match a with
  | ⟨0, _⟩ => show win0_3.index t (0 : Fin 2) * 1 + 1 * 0 = 0; rw [e0]
  | ⟨1, _⟩ => show win0_3.index t (1 : Fin 2) * 128 + 1 * q.val = q.val; rw [e1]; omega

theorem row_block0_4 (c : Dev nD) (t : Fin cfg0.N) (q : Fin 128) :
    (iblk0 V c 4 t : Vec Ideal S1x128 .f32) (ix2 0 q) = (V c main_v45 : Cert.Gcn.Row 128) (ix2 0 q) := by
  obtain ⟨-, -, -, -, -, -, -, -, e0, e1, -⟩ := idx_facts0 t
  unfold iblk0
  rw [View.read_apply]
  show V c main_v45 _ = V c main_v45 _
  congr 1
  funext a
  apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

theorem row_block0_5 (c : Dev nD) (t : Fin cfg0.N) (q : Fin 128) :
    (iblk0 V c 5 t : Vec Ideal S1x128 .f32) (ix2 0 q) = (V c main_v46 : Cert.Gcn.Row 128) (ix2 0 q) := by
  obtain ⟨-, -, -, -, -, -, -, -, -, -, e0, e1, -⟩ := idx_facts0 t
  unfold iblk0
  rw [View.read_apply]
  show V c main_v46 _ = V c main_v46 _
  congr 1
  funext a
  apply Fin.ext
  match a with
  | ⟨0, _⟩ => show win0_5.index t (0 : Fin 2) * 1 + 1 * 0 = 0; rw [e0]
  | ⟨1, _⟩ => show win0_5.index t (1 : Fin 2) * 128 + 1 * q.val = q.val; rw [e1]; omega

theorem row_block0_6 (c : Dev nD) (t : Fin cfg0.N) (q : Fin 128) :
    (iblk0 V c 6 t : Vec Ideal S1x128 .f32) (ix2 0 q) = (V c main_v47 : Cert.Gcn.Row 128) (ix2 0 q) := by
  obtain ⟨-, -, -, -, -, -, -, -, -, -, -, -, e0, e1, -⟩ := idx_facts0 t
  unfold iblk0
  rw [View.read_apply]
  show V c main_v47 _ = V c main_v47 _
  congr 1
  funext a
  apply Fin.ext
  match a with
  | ⟨0, _⟩ => show win0_6.index t (0 : Fin 2) * 1 + 1 * 0 = 0; rw [e0]
  | ⟨1, _⟩ => show win0_6.index t (1 : Fin 2) * 128 + 1 * q.val = q.val; rw [e1]; omega

/-- The cell `(p, q)` of the result block at point `t` is the cell `(5000 t + p, q)` of the result. -/
theorem out_cell0 (t : Fin cfg0.N) (p : Fin 5000) (q : Fin 128) (r : Fin 50000) (hr : r.val = 5000 * t.val + p.val) :
    ((cfg0.win 7).blk t).view.emb (ix2 p q) = (ix2 r q : S50000x128.Idx) := by
  obtain ⟨-, -, -, -, -, -, -, -, -, -, -, -, -, -, e0, e1⟩ := idx_facts0 t
  funext a
  apply Fin.ext
  match a with
  | ⟨0, _⟩ => show win0_7.index t (0 : Fin 2) * 5000 + 1 * p.val = r.val; rw [e0, hr]; omega
  | ⟨1, _⟩ => show win0_7.index t (1 : Fin 2) * 128 + 1 * q.val = q.val; rw [e1]; omega

/-- What point `t` writes back is block `t` of the dense layer of the arrays the region found. -/
theorem flushed0_eq (c : Dev nD) (t : Fin cfg0.N) :
    (dat0 V c).flushed 7 t = ((cfg0.win 7).blk t).view.read (Elt Ideal)
      (Cert.Gcn.denseRows (V c main_v42) (V c main_arg2) (V c main_v43) (V c main_v44) (V c main_v45) (V c main_v46)
        (V c main_v47)) := by
  show (cfg0.win 7).cut (grid0.coords t) ((dat0 V c).after 7 t) = _
  rw [after0_7]
  refine funext_ix2 (a := 5000) (b := 128) fun p q => ?_
  have ht : t.val < 10 := lt_of_lt_of_eq t.isLt N_0
  have hp : p.val < 5000 := p.isLt
  show out0_7 (iblk0 V c 0 t) (iblk0 V c 1 t) (iblk0 V c 2 t) (iblk0 V c 3 t) (iblk0 V c 4 t) (iblk0 V c 5 t)
    (iblk0 V c 6 t) (ix2 p q) = _
  rw [View.read_apply, out_cell0 t p q ⟨5000 * t.val + p.val, by omega⟩ rfl]
  exact dense_block_eq (V c main_v42) (V c main_arg2) (V c main_v43) (V c main_v44) (V c main_v45) (V c main_v46)
    (V c main_v47) (iblk0 V c 0 t) (iblk0 V c 1 t) (iblk0 V c 2 t) (iblk0 V c 3 t) (iblk0 V c 4 t) (iblk0 V c 5 t)
    (iblk0 V c 6 t) ⟨5000 * t.val + p.val, by omega⟩ p q
    (fun k => feat_block0 V c t p k ⟨5000 * t.val + p.val, by omega⟩ rfl) (fun k => wt_block0 V c t k q)
    (row_block0_2 V c t q) (row_block0_3 V c t q) (row_block0_4 V c t q) (row_block0_5 V c t q) (row_block0_6 V c t q)

/-- An index of the result lies in point `t`'s block iff each coordinate lies in the block's range on its axis. -/
theorem mem_blk0 (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v48).slice (win0_7.rect t)).set ↔ _
  rw [View.set_slice_whole, Rect.mem_set_unit]
  exact Iff.rfl

/-- Row `r` of the result lies in the block of point `r / 5000`: the ten blocks cover the result. -/
theorem cover0 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, -, -, e0, e1⟩ := idx_facts0 t
  refine ⟨t, flush0_7 t, ?_⟩
  rw [mem_blk0]
  intro a
  match a with
  | ⟨0, _⟩ =>
    show win0_7.index t (0 : Fin 2) * 5000 ≤ (i 0).val ∧ (i 0).val < win0_7.index t (0 : Fin 2) * 5000 + 5000
    rw [e0, ht]; omega
  | ⟨1, _⟩ =>
    show win0_7.index t (1 : Fin 2) * 128 ≤ (i 1).val ∧ (i 1).val < win0_7.index t (1 : Fin 2) * 128 + 128
    rw [e1]; omega

/-- The array region 0 leaves is the dense layer of the arrays it found. -/
theorem region0 (c : Dev nD) :
    (dat0 V c).arrAt 7 cfg0.N
      = Cert.Gcn.denseRows (V c main_v42) (V c main_arg2) (V c main_v43) (V c main_v44) (V c main_v45) (V c main_v46)
          (V c main_v47) :=
  (dat0 V c).arrAt_eq_of_cover 7 _ (fun t _ => flushed0_eq V c t) cover0

end Region0

/-! ## Region 1: the second dense layer -/

section Region1
variable (V : (c : Dev nD) → (b : Ref sig .tc) → Buf (Elt Ideal) ((c : Thread nD τ).loc b))

/-- The index maps of region 1, decided over its ten points: the feature window and the result window take block `t`
    of the rows, every other window its one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of the feature block at point `t` is row `5000 t + p` of the features. -/
theorem feat_block1 (c : Dev nD) (t : Fin cfg1.N) (p : Fin 5000) (k : Fin 128) (r : Fin 50000)
    (hr : r.val = 5000 * t.val + p.val) :
    (iblk1 V c 0 t : Vec Ideal S5000x128 .f32) (ix2 p k) = (V c main_v61 : Cert.Gcn.Feat 128) (ix2 r k) := by
  obtain ⟨e0, e1, -⟩ := idx_facts1 t
  unfold iblk1
  rw [View.read_apply]
  show V c main_v61 _ = V c main_v61 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The weight window's block is the weight matrix at every point. -/
theorem wt_block1 (c : Dev nD) (t : Fin cfg1.N) (k : Fin 128) (q : Fin 128) :
    (iblk1 V c 1 t : Vec Ideal S128x128 .f32) (ix2 k q) = (V c main_arg8 : Cert.Gcn.Wt 128) (ix2 k q) := by
  obtain ⟨-, -, e0, e1, -⟩ := idx_facts1 t
  unfold iblk1
  rw [View.read_apply]
  show V c main_arg8 _ = V c main_arg8 _
  congr 1
  funext a
  apply Fin.ext
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- Each parameter window's block is its parameter row at every point. -/
theorem row_block1_2 (c : Dev nD) (t : Fin cfg1.N) (q : Fin 128) :
    (iblk1 V c 2 t : Vec Ideal S1x128 .f32) (ix2 0 q) = (V c main_v62 : Cert.Gcn.Row 128) (ix2 0 q) := by
  obtain ⟨-, -, -, -, e0, e1, -⟩ := idx_facts1 t
  unfold iblk1
  rw [View.read_apply]
  show V c main_v62 _ = V c main_v62 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

theorem row_block1_3 (c : Dev nD) (t : Fin cfg1.N) (q : Fin 128) :
    (iblk1 V c 3 t : Vec Ideal S1x128 .f32) (ix2 0 q) = (V c main_v63 : Cert.Gcn.Row 128) (ix2 0 q) := by
  obtain ⟨-, -, -, -, -, -, e0, e1, -⟩ := idx_facts1 t
  unfold iblk1
  rw [View.read_apply]
  show V c main_v63 _ = V c main_v63 _
  congr 1
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

theorem row_block1_4 (c : Dev nD) (t : Fin cfg1.N) (q : Fin 128) :
    (iblk1 V c 4 t : Vec Ideal S1x128 .f32) (ix2 0 q) = (V c main_v64 : Cert.Gcn.Row 128) (ix2 0 q) := by
  obtain ⟨-, -, -, -, -, -, -, -, e0, e1, -⟩ := idx_facts1 t
  unfold iblk1
  rw [View.read_apply]
  show V c main_v64 _ = V c main_v64 _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

theorem row_block1_5 (c : Dev nD) (t : Fin cfg1.N) (q : Fin 128) :
    (iblk1 V c 5 t : Vec Ideal S1x128 .f32) (ix2 0 q) = (V c main_v65 : Cert.Gcn.Row 128) (ix2 0 q) := by
  obtain ⟨-, -, -, -, -, -, -, -, -, -, e0, e1, -⟩ := idx_facts1 t
  unfold iblk1
  rw [View.read_apply]
  show V c main_v65 _ = V c main_v65 _
  congr 1
  funext a
  apply Fin.ext
  match a with
  | ⟨0, _⟩ => show win1_5.index t (0 : Fin 2) * 1 + 1 * 0 = 0; rw [e0]
  | ⟨1, _⟩ => show win1_5.index t (1 : Fin 2) * 128 + 1 * q.val = q.val; rw [e1]; omega

theorem row_block1_6 (c : Dev nD) (t : Fin cfg1.N) (q : Fin 128) :
    (iblk1 V c 6 t : Vec Ideal S1x128 .f32) (ix2 0 q) = (V c main_v66 : Cert.Gcn.Row 128) (ix2 0 q) := by
  obtain ⟨-, -, -, -, -, -, -, -, -, -, -, -, e0, e1, -⟩ := idx_facts1 t
  unfold iblk1
  rw [View.read_apply]
  show V c main_v66 _ = V c main_v66 _
  congr 1
  funext a
  apply Fin.ext
  match a with
  | ⟨0, _⟩ => show win1_6.index t (0 : Fin 2) * 1 + 1 * 0 = 0; rw [e0]
  | ⟨1, _⟩ => show win1_6.index t (1 : Fin 2) * 128 + 1 * q.val = q.val; rw [e1]; omega

/-- The cell `(p, q)` of the result block at point `t` is the cell `(5000 t + p, q)` of the result. -/
theorem out_cell1 (t : Fin cfg1.N) (p : Fin 5000) (q : Fin 128) (r : Fin 50000) (hr : r.val = 5000 * t.val + p.val) :
    ((cfg1.win 7).blk t).view.emb (ix2 p q) = (ix2 r q : S50000x128.Idx) := by
  obtain ⟨-, -, -, -, -, -, -, -, -, -, -, -, -, -, e0, e1⟩ := idx_facts1 t
  funext a
  apply Fin.ext
  match a with
  | ⟨0, _⟩ => show win1_7.index t (0 : Fin 2) * 5000 + 1 * p.val = r.val; rw [e0, hr]; omega
  | ⟨1, _⟩ => show win1_7.index t (1 : Fin 2) * 128 + 1 * q.val = q.val; rw [e1]; omega

/-- What point `t` writes back is block `t` of the dense layer of the arrays the region found. -/
theorem flushed1_eq (c : Dev nD) (t : Fin cfg1.N) :
    (dat1 V c).flushed 7 t = ((cfg1.win 7).blk t).view.read (Elt Ideal)
      (Cert.Gcn.denseRows (V c main_v61) (V c main_arg8) (V c main_v62) (V c main_v63) (V c main_v64) (V c main_v65)
        (V c main_v66)) := by
  show (cfg1.win 7).cut (grid1.coords t) ((dat1 V c).after 7 t) = _
  rw [after1_7]
  refine funext_ix2 (a := 5000) (b := 128) fun p q => ?_
  have ht : t.val < 10 := lt_of_lt_of_eq t.isLt N_1
  have hp : p.val < 5000 := p.isLt
  show out1_7 (iblk1 V c 0 t) (iblk1 V c 1 t) (iblk1 V c 2 t) (iblk1 V c 3 t) (iblk1 V c 4 t) (iblk1 V c 5 t)
    (iblk1 V c 6 t) (ix2 p q) = _
  rw [View.read_apply, out_cell1 t p q ⟨5000 * t.val + p.val, by omega⟩ rfl]
  exact dense_block_eq1 (V c main_v61) (V c main_arg8) (V c main_v62) (V c main_v63) (V c main_v64) (V c main_v65)
    (V c main_v66) (iblk1 V c 0 t) (iblk1 V c 1 t) (iblk1 V c 2 t) (iblk1 V c 3 t) (iblk1 V c 4 t) (iblk1 V c 5 t)
    (iblk1 V c 6 t) ⟨5000 * t.val + p.val, by omega⟩ p q
    (fun k => feat_block1 V c t p k ⟨5000 * t.val + p.val, by omega⟩ rfl) (fun k => wt_block1 V c t k q)
    (row_block1_2 V c t q) (row_block1_3 V c t q) (row_block1_4 V c t q) (row_block1_5 V c t q) (row_block1_6 V c t q)

/-- An index of the result lies in point `t`'s block iff each coordinate lies in the block's range on its axis. -/
theorem mem_blk1 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v67).slice (win1_7.rect t)).set ↔ _
  rw [View.set_slice_whole, Rect.mem_set_unit]
  exact Iff.rfl

/-- Row `r` of the result lies in the block of point `r / 5000`: the ten blocks cover the result. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, e0, e1⟩ := idx_facts1 t
  refine ⟨t, flush1_7 t, ?_⟩
  rw [mem_blk1]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 128 ≤ (i 1).val ∧ (i 1).val < win1_7.index t (1 : Fin 2) * 128 + 128
    rw [e1]; omega

/-- The array region 1 leaves is the dense layer of the arrays it found. -/
theorem region1 (c : Dev nD) :
    (dat1 V c).arrAt 7 cfg1.N
      = Cert.Gcn.denseRows (V c main_v61) (V c main_arg8) (V c main_v62) (V c main_v63) (V c main_v64) (V c main_v65)
          (V c main_v66) :=
  (dat1 V c).arrAt_eq_of_cover 7 _ (fun t _ => flushed1_eq V c t) cover1

end Region1

/-! ## The last layer's block at an entry -/

/-- The 64-wide product keeps the output's row as the left operand's row … -/
theorem dotB_l0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … contracts the left operand's column … -/
theorem dotB_l1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- … against the right operand's row … -/
theorem dotB_r0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … and keeps the output's column as the right operand's column. -/
theorem dotB_r1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the last layer's body stores, at row `p` and column `q` of its block: the row of the feature block against the
    column of the weights, plus entry `q` of the bias row. -/
theorem last_payload (x0 : Vec Ideal S5000x128 .f32) (x1 : Vec Ideal S128x64 .f32) (x2 : Vec Ideal S1x64 .f32)
    (p : Fin 5000) (q : Fin 64) :
    k2_pay1 (F := Ideal) x0 x1 x2 (ix2 p q) = (∑ k : Fin 128, x0 (ix2 p k) * x1 (ix2 k q)) + x2 (ix2 0 q) := by
  unfold k2_pay1
  simp only [shapeCast_self, addf_apply, broadcastTo_1b_ab_apply, truncf_apply,
    Cert.RowOps.matmul_zero_entry dot_S5000x128_S128x64_S5000x64_1_0_0_1_n_n rfl rfl dotB_l0 dotB_l1 dotB_r0 dotB_r1]

/-- The block the last layer's body leaves, at row `p` and column `q`. -/
theorem last_block (x0 : Vec Ideal S5000x128 .f32) (x1 : Vec Ideal S128x64 .f32) (x2 : Vec Ideal S1x64 .f32)
    (p : Fin 5000) (q : Fin 64) :
    out2_3 (F := Ideal) x0 x1 x2 (ix2 p q) = (∑ k : Fin 128, x0 (ix2 p k) * x1 (ix2 k q)) + x2 (ix2 0 q) := by
  unfold out2_3
  rw [View.canon_unit_zero hz]
  simp only [View.ld_unit_zero (S := S5000x128) hz, View.ld_unit_zero (S := S128x64) hz, View.ld_unit_zero (S := S1x64) hz]
  exact last_payload x0 x1 x2 p q

/-- A block whose row `p` is row `r` of the features, beside the whole weight matrix and bias row, is sent to row `r`
    of the last layer. -/
theorem last_block_eq (A : Cert.Gcn.Feat 128) (W : Cert.Gcn.Wt 64) (b : Cert.Gcn.Row 64)
    (x0 : Vec Ideal S5000x128 .f32) (x1 : Vec Ideal S128x64 .f32) (x2 : Vec Ideal S1x64 .f32)
    (r : Fin 50000) (p : Fin 5000) (q : Fin 64)
    (h0 : ∀ k : Fin 128, x0 (ix2 p k) = A (ix2 r k)) (h1 : ∀ k : Fin 128, x1 (ix2 k q) = W (ix2 k q))
    (h2 : x2 (ix2 0 q) = b (ix2 0 q)) :
    out2_3 (F := Ideal) x0 x1 x2 (ix2 p q) = Cert.Gcn.lastRows A W b (ix2 r q) := by
  rw [last_block, h2]
  simp only [h0, h1]
  rfl

/-! ## Region 2: the last layer -/

section Region2
variable (V : (c : Dev nD) → (b : Ref sig .tc) → Buf (Elt Ideal) ((c : Thread nD τ).loc b))

/-- The index maps of region 2, decided over its ten points: the feature window and the result window take block `t`
    of the rows, the weight and bias windows their one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the feature block at point `t` is row `5000 t + p` of the features. -/
theorem feat_block2 (c : Dev nD) (t : Fin cfg2.N) (p : Fin 5000) (k : Fin 128) (r : Fin 50000)
    (hr : r.val = 5000 * t.val + p.val) :
    (iblk2 V c 0 t : Vec Ideal S5000x128 .f32) (ix2 p k) = (V c main_v80 : Cert.Gcn.Feat 128) (ix2 r k) := by
  obtain ⟨e0, e1, -⟩ := idx_facts2 t
  unfold iblk2
  rw [View.read_apply]
  show V c main_v80 _ = V c main_v80 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The weight window's block is the weight matrix at every point. -/
theorem wt_block2 (c : Dev nD) (t : Fin cfg2.N) (k : Fin 128) (q : Fin 64) :
    (iblk2 V c 1 t : Vec Ideal S128x64 .f32) (ix2 k q) = (V c main_arg14 : Cert.Gcn.Wt 64) (ix2 k q) := by
  obtain ⟨-, -, e0, e1, -⟩ := idx_facts2 t
  unfold iblk2
  rw [View.read_apply]
  show V c main_arg14 _ = V c main_arg14 _
  congr 1
  funext a
  apply Fin.ext
  match a with
  | ⟨0, _⟩ => show win2_1.index t (0 : Fin 2) * 128 + 1 * k.val = k.val; rw [e0]; omega
  | ⟨1, _⟩ => show win2_1.index t (1 : Fin 2) * 64 + 1 * q.val = q.val; rw [e1]; omega

/-- The bias window's block is the bias row at every point. -/
theorem row_block2_2 (c : Dev nD) (t : Fin cfg2.N) (q : Fin 64) :
    (iblk2 V c 2 t : Vec Ideal S1x64 .f32) (ix2 0 q) = (V c main_v81 : Cert.Gcn.Row 64) (ix2 0 q) := by
  obtain ⟨-, -, -, -, e0, e1, -⟩ := idx_facts2 t
  unfold iblk2
  rw [View.read_apply]
  show V c main_v81 _ = V c main_v81 _
  congr 1
  funext a
  apply Fin.ext
  match a with
  | ⟨0, _⟩ => show win2_2.index t (0 : Fin 2) * 1 + 1 * 0 = 0; rw [e0]
  | ⟨1, _⟩ => show win2_2.index t (1 : Fin 2) * 64 + 1 * q.val = q.val; rw [e1]; omega

/-- The cell `(p, q)` of the result block at point `t` is the cell `(5000 t + p, q)` of the result. -/
theorem out_cell2 (t : Fin cfg2.N) (p : Fin 5000) (q : Fin 64) (r : Fin 50000) (hr : r.val = 5000 * t.val + p.val) :
    ((cfg2.win 3).blk t).view.emb (ix2 p q) = (ix2 r q : S50000x64.Idx) := by
  obtain ⟨-, -, -, -, -, -, e0, e1⟩ := idx_facts2 t
  funext a
  apply Fin.ext
  match a with
  | ⟨0, _⟩ => show win2_3.index t (0 : Fin 2) * 5000 + 1 * p.val = r.val; rw [e0, hr]; omega
  | ⟨1, _⟩ => show win2_3.index t (1 : Fin 2) * 64 + 1 * q.val = q.val; rw [e1]; omega

/-- What point `t` writes back is block `t` of the last layer of the arrays the region found. -/
theorem flushed2_eq (c : Dev nD) (t : Fin cfg2.N) :
    (dat2 V c).flushed 3 t = ((cfg2.win 3).blk t).view.read (Elt Ideal)
      (Cert.Gcn.lastRows (V c main_v80) (V c main_arg14) (V c main_v81)) := by
  show (cfg2.win 3).cut (grid2.coords t) ((dat2 V c).after 3 t) = _
  rw [after2_3]
  refine funext_ix2 (a := 5000) (b := 64) fun p q => ?_
  have ht : t.val < 10 := lt_of_lt_of_eq t.isLt N_2
  have hp : p.val < 5000 := p.isLt
  show out2_3 (iblk2 V c 0 t) (iblk2 V c 1 t) (iblk2 V c 2 t) (ix2 p q) = _
  rw [View.read_apply, out_cell2 t p q ⟨5000 * t.val + p.val, by omega⟩ rfl]
  exact last_block_eq (V c main_v80) (V c main_arg14) (V c main_v81) (iblk2 V c 0 t) (iblk2 V c 1 t) (iblk2 V c 2 t)
    ⟨5000 * t.val + p.val, by omega⟩ p q
    (fun k => feat_block2 V c t p k ⟨5000 * t.val + p.val, by omega⟩ rfl) (fun k => wt_block2 V c t k q)
    (row_block2_2 V c t q)

/-- An index of the result lies in point `t`'s block iff each coordinate lies in the block's range on its axis. -/
theorem mem_blk2 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v82).slice (win2_3.rect t)).set ↔ _
  rw [View.set_slice_whole, Rect.mem_set_unit]
  exact Iff.rfl

/-- Row `r` of the result lies in the block of point `r / 5000`: the ten blocks cover the result. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, e0, e1⟩ := idx_facts2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 64 ≤ (i 1).val ∧ (i 1).val < win2_3.index t (1 : Fin 2) * 64 + 64
    rw [e1]; omega

/-- The array region 2 leaves is the last layer of the arrays it found. -/
theorem region2 (c : Dev nD) :
    (dat2 V c).arrAt 3 cfg2.N = Cert.Gcn.lastRows (V c main_v80) (V c main_arg14) (V c main_v81) :=
  (dat2 V c).arrAt_eq_of_cover 3 _ (fun t _ => flushed2_eq V c t) cover2

end Region2

end Cert.KernelIdeal.RegionValue

end
-- ==== Proof.KernelRun.lean ====
/-
  The run of the three-layer graph convolution with its result buffer named.

  The program alternates stretches of host operations (the bookkeeping of the edge list and, per layer, the
  neighbourhood sum: a gather of feature rows along the source nodes, a scaling by the edge weight, a scatter-add onto
  the target nodes) with three dense layers.  Its run ends with the last layer's output array holding what the last
  region's write-backs leave of the contents the region found; those contents are the host operations' values of the
  previous region's output, and so on back to the arguments.
-/
import proofs.«115181_j44435731644444_1_alg».proof.Proof.Gen.KernelIdeal.Frame
import proofs.«115181_j44435731644444_1_alg».proof.Proof.Spec

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-! ## The run -/

set_option backward.isDefEq.respectTransparency.types false in
/-- Every weakly fair execution of the program terminates, nothing faulting, with the result buffer at the last
    boundary's contents and every argument array as launched. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v82) = Gen.W8 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v82 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.RunValue

end
-- ==== Proof.KernelHost.lean ====
/-
  The host operations of the three-layer graph convolution, read.

  Between its dense layers the program keeps the edge list's bookkeeping — the source and target node of every edge
  with one self loop per node appended, the number of edges landing on each node, its inverse square root, and one
  weight per edge, the product of the two end nodes' — and, before each layer, forms the neighbourhood sum of the
  features that layer reads: a gather of feature rows along the source nodes, a scaling by the edge weight, a
  scatter-add onto the target nodes from zero.  Every one of these buffers is a function of the edge array alone (the
  program recomputes the same columns before each layer), and every neighbourhood sum is the specification's
  `agg128` of those columns.  Read back through the boundaries of the run, the result buffer is then the network
  `kerOut` of the arguments, given each dense layer's output as a function of the arrays it finds.
-/
import proofs.«115181_j44435731644444_1_alg».proof.Proof.Gen.KernelIdeal.Frame
import proofs.«115181_j44435731644444_1_alg».proof.Proof.Spec
import Idealize.ShloMosaic.Lib.IdealHost
import Idealize.ShloMosaic.Lib.ValueLayout
import Idealize.ShloMosaic.Lib.Pipeline.Value

set_option maxRecDepth 16384

noncomputable section

namespace Cert.KernelIdeal.RunValue

open Idealize.ShloMosaic Idealize.ShloMosaic.TcCoe Idealize.ShloMosaic.Tactic
open Idealize.ShloMosaic.ValueIdx
open Cert.KernelIdeal.Gen

variable (m : (ℓ : Loc nD τ sig) → Buf (Elt Ideal) ℓ) (ρ : Dev nD → PrngReg)

/-! ## The edge list's bookkeeping, as functions of the edge array alone -/

/-- A per-edge vector laid out as a column. -/
abbrev colOf {α : Type} (v : S850000.Idx → α) : S850000x1.Idx → α :=
  broadcastInDim S850000x1 ![0] bcast_S850000_S850000x1_0 v

/-- A node number below zero counted from the end: 50000 added to it. -/
def wrapIdx (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- Row `r` of the edge array followed by one self loop per node. -/
def withLoops (row : Fin 2 → Nat) (hs : S2x800000.Slices row S1x800000) (x1 : IVec S2x800000 32) : IVec S850000 32 :=
  concatenate S850000 0
    [⟨S800000, fun i => shapeCast S800000 (extractStridedSlice S1x800000 row x1 hs) shapeCasts_S1x800000_S800000 i⟩,
     ⟨S50000, iotaInDim S50000 32 0⟩] concatenates_S800000_S50000_S850000_d0

/-- The source node of every edge, self loops included. -/
def srcRaw (x1 : IVec S2x800000 32) : IVec S850000 32 := withLoops ![0, 0] slices_S2x800000_S1x800000_0_0 x1
/-- The target node of every edge, self loops included. -/
def dstRaw (x1 : IVec S2x800000 32) : IVec S850000 32 := withLoops ![1, 0] slices_S2x800000_S1x800000_1_0 x1

/-- The source nodes as the column the gathers read, negative numbers wrapped. -/
def srcCol (x1 : IVec S2x800000 32) : Cert.Gcn.EdgeIdx := colOf (wrapIdx (srcRaw x1))
/-- The target nodes as the column the scatters read. -/
def dstCol (x1 : IVec S2x800000 32) : Cert.Gcn.EdgeIdx := colOf (dstRaw x1)

/-- The number of edges landing on each node. -/
def degree (x1 : IVec S2x800000 32) : FVec Ideal S50000 .f32 :=
  Host.scatterAdd scatter_S50000_S850000x1_S850000_n_0_0_1
    (broadcastInDim S50000 ![] bcast_S_S50000 (constant (F := Ideal) S_ .f32 0x00000000#32))
    (dstCol x1)
    (broadcastInDim S850000 ![] bcast_S_S850000 (constant (F := Ideal) S_ .f32 0x3F800000#32))

/-- The inverse square root of the degree, zero where no edge lands. -/
def invSqrtDeg (x1 : IVec S2x800000 32) : FVec Ideal S50000 .f32 :=
  select (cmpf .ogt (degree x1) (broadcastInDim S50000 ![] bcast_S_S50000 (constant (F := Ideal) S_ .f32 0x00000000#32)))
    (Host.rsqrt (F := Ideal) (degree x1))
    (broadcastInDim S50000 ![] bcast_S_S50000 (constant (F := Ideal) S_ .f32 0x00000000#32))

/-- The weight of every edge: the product of its two end nodes' inverse square root degrees. -/
def edgeW (x1 : IVec S2x800000 32) : Cert.Gcn.EdgeW :=
  mulf (Host.gather gather_S50000_S850000x1_S850000_n_0_n_n_0_1_1 (invSqrtDeg x1) (colOf (wrapIdx (srcRaw x1))))
    (Host.gather gather_S50000_S850000x1_S850000_n_0_n_n_0_1_1 (invSqrtDeg x1) (colOf (wrapIdx (dstRaw x1))))

/-! ## The neighbourhood sum as the program spells it -/

/-- The printed scatter record is the specification's. -/
theorem scatter_rec : scatter_S50000x128_S850000x1_S850000x128_1_0_0_1 = Cert.Gcn.sd128 := rfl
/-- The printed gather record is the specification's. -/
theorem gather_rec : gather_S50000x128_S850000x1_S850000x128_1_0_n_n_0_1_1128 = Cert.Gcn.gd128 := rfl

/-- The zero array the scatter starts from. -/
theorem zeros_eq : (broadcastInDim S50000x128 ![] bcast_S_S50000x128 (constant (F := Ideal) S_ .f32 0x00000000#32))
    = (fun _ => (0 : EReal)) := by
  funext j
  rw [broadcastInDim_scalar_apply]
  exact Ideal.ofBits_zero_f32

/-- The edge weight spread over the 128 features of the edge's row. -/
theorem weight_apply (n : FVec Ideal S850000 .f32) (j : S850000x128.Idx) :
    broadcastInDim S850000x128 ![0, 1] bcast_S850000x1_S850000x128_0_1 (colOf n) j = n (ix1 (j 0)) := by
  rw [broadcastInDim_apply _ bcast_S850000x1_S850000x128_0_1 (colOf n) j (ix2 (j 0) (0 : Fin 1)) (fun a => match a with
    | ⟨0, _⟩ => by show (j 0).val = if (850000 : Nat) = 1 then 0 else (j 0).val; rw [if_neg (by decide)]
    | ⟨1, _⟩ => by show 0 = if (1 : Nat) = 1 then 0 else (j 1).val; rw [if_pos rfl])]
  exact broadcastInDim_apply _ bcast_S850000_S850000x1_0 n (ix2 (j 0) (0 : Fin 1)) (ix1 (j 0)) (fun a => match a with
    | ⟨0, _⟩ => by show (j 0).val = if (850000 : Nat) = 1 then 0 else (j 0).val; rw [if_neg (by decide)])

/-- Gather the rows of `f` along `src`, scale each by its edge's weight, add onto the rows `dst` names from zero:
    the specification's neighbourhood sum. -/
theorem agg_form (src dst : Cert.Gcn.EdgeIdx) (n : FVec Ideal S850000 .f32) (f : FVec Ideal S50000x128 .f32) :
    Host.scatterAdd scatter_S50000x128_S850000x1_S850000x128_1_0_0_1
      (broadcastInDim S50000x128 ![] bcast_S_S50000x128 (constant (F := Ideal) S_ .f32 0x00000000#32)) dst
      (mulf (broadcastInDim S850000x128 ![0, 1] bcast_S850000x1_S850000x128_0_1 (colOf n))
        (Host.gather gather_S50000x128_S850000x1_S850000x128_1_0_n_n_0_1_1128 f src))
    = Cert.Gcn.agg128 src dst n f := by
  unfold Cert.Gcn.agg128 Host.scatterAdd
  rw [Ideal.hostScatterAdd_def, zeros_eq, scatter_rec, gather_rec]
  congr 1
  funext j
  rw [mulf_apply, weight_apply]

/-- A vector of 128 reshaped to one row. -/
theorem row128_form (x : FVec Ideal S128 .f32) :
    (fun i => shapeCast S1x128 x shapeCasts_S128_S1x128 i) = Cert.Gcn.asRow x := by
  funext i
  unfold Cert.Gcn.asRow
  rw [eq_ix2 i]
  exact shapeCast_a_1a_apply x shapeCasts_S128_S1x128 (i 0) (i 1)

/-- A vector of 64 reshaped to one row. -/
theorem row64_form (x : FVec Ideal S64 .f32) :
    (fun i => shapeCast S1x64 x shapeCasts_S64_S1x64 i) = Cert.Gcn.asRow x := by
  funext i
  unfold Cert.Gcn.asRow
  rw [eq_ix2 i]
  exact shapeCast_a_1a_apply x shapeCasts_S64_S1x64 (i 0) (i 1)

/-! ## What each stretch of host operations leaves, from any contents `V` -/

section Stretches
variable (V : Valuation τ sig (Elt Ideal))

/-- The edge weight from the nodes' inverse square root degrees and the two node lists. -/
def edgeOf (dinv : FVec Ideal S50000 .f32) (s d : IVec S850000 32) : Cert.Gcn.EdgeW :=
  mulf (Host.gather gather_S50000_S850000x1_S850000_n_0_n_n_0_1_1 dinv (colOf (wrapIdx s)))
    (Host.gather gather_S50000_S850000x1_S850000_n_0_n_n_0_1_1 dinv (colOf (wrapIdx d)))

theorem edgeW_eq (x1 : IVec S2x800000 32) : edgeW x1 = edgeOf (invSqrtDeg x1) (srcRaw x1) (dstRaw x1) := rfl

/-! ### The first stretch: the node lists and the degrees -/

open StableHlo in
theorem ops0_v3 : StableHlo.after (hostOps0 (F := Ideal)) V (Proc.devRef .tc main_v3) = srcRaw (V (Proc.devRef .tc main_arg1)) := by
  after_results; rfl
open StableHlo in
theorem ops0_v6 : StableHlo.after (hostOps0 (F := Ideal)) V (Proc.devRef .tc main_v6) = dstRaw (V (Proc.devRef .tc main_arg1)) := by
  after_results; rfl
open StableHlo in
theorem ops0_v12 : StableHlo.after (hostOps0 (F := Ideal)) V (Proc.devRef .tc main_v12)
    = cmpf .ogt (degree (V (Proc.devRef .tc main_arg1))) (broadcastInDim S50000 ![] bcast_S_S50000 (constant (F := Ideal) S_ .f32 0x00000000#32)) := by
  after_results; rfl
open StableHlo in
theorem ops0_v13 : StableHlo.after (hostOps0 (F := Ideal)) V (Proc.devRef .tc main_v13) = Host.rsqrt (F := Ideal) (degree (V (Proc.devRef .tc main_arg1))) := by
  after_results; rfl
open StableHlo in
theorem ops0_cst2 : StableHlo.after (hostOps0 (F := Ideal)) V (Proc.devRef .tc main_cst_2) = constant (F := Ideal) S_ .f32 0x00000000#32 := by
  after_results
open StableHlo in
theorem ops0_arg0 : StableHlo.after (hostOps0 (F := Ideal)) V (Proc.devRef .tc main_arg0) = V (Proc.devRef .tc main_arg0) := by
  after_results_simp
open StableHlo in
theorem ops0_arg2 : StableHlo.after (hostOps0 (F := Ideal)) V (Proc.devRef .tc main_arg2) = V (Proc.devRef .tc main_arg2) := by
  after_results_simp
open StableHlo in
theorem ops0_arg3 : StableHlo.after (hostOps0 (F := Ideal)) V (Proc.devRef .tc main_arg3) = V (Proc.devRef .tc main_arg3) := by
  after_results_simp
open StableHlo in
theorem ops0_arg4 : StableHlo.after (hostOps0 (F := Ideal)) V (Proc.devRef .tc main_arg4) = V (Proc.devRef .tc main_arg4) := by
  after_results_simp
open StableHlo in
theorem ops0_arg5 : StableHlo.after (hostOps0 (F := Ideal)) V (Proc.devRef .tc main_arg5) = V (Proc.devRef .tc main_arg5) := by
  after_results_simp
open StableHlo in
theorem ops0_arg6 : StableHlo.after (hostOps0 (F := Ideal)) V (Proc.devRef .tc main_arg6) = V (Proc.devRef .tc main_arg6) := by
  after_results_simp
open StableHlo in
theorem ops0_arg7 : StableHlo.after (hostOps0 (F := Ideal)) V (Proc.devRef .tc main_arg7) = V (Proc.devRef .tc main_arg7) := by
  after_results_simp
open StableHlo in
theorem ops0_arg8 : StableHlo.after (hostOps0 (F := Ideal)) V (Proc.devRef .tc main_arg8) = V (Proc.devRef .tc main_arg8) := by
  after_results_simp
open StableHlo in
theorem ops0_arg9 : StableHlo.after (hostOps0 (F := Ideal)) V (Proc.devRef .tc main_arg9) = V (Proc.devRef .tc main_arg9) := by
  after_results_simp
open StableHlo in
theorem ops0_arg10 : StableHlo.after (hostOps0 (F := Ideal)) V (Proc.devRef .tc main_arg10) = V (Proc.devRef .tc main_arg10) := by
  after_results_simp
open StableHlo in
theorem ops0_arg11 : StableHlo.after (hostOps0 (F := Ideal)) V (Proc.devRef .tc main_arg11) = V (Proc.devRef .tc main_arg11) := by
  after_results_simp
open StableHlo in
theorem ops0_arg12 : StableHlo.after (hostOps0 (F := Ideal)) V (Proc.devRef .tc main_arg12) = V (Proc.devRef .tc main_arg12) := by
  after_results_simp
open StableHlo in
theorem ops0_arg13 : StableHlo.after (hostOps0 (F := Ideal)) V (Proc.devRef .tc main_arg13) = V (Proc.devRef .tc main_arg13) := by
  after_results_simp
open StableHlo in
theorem ops0_arg14 : StableHlo.after (hostOps0 (F := Ideal)) V (Proc.devRef .tc main_arg14) = V (Proc.devRef .tc main_arg14) := by
  after_results_simp
open StableHlo in
theorem ops0_arg15 : StableHlo.after (hostOps0 (F := Ideal)) V (Proc.devRef .tc main_arg15) = V (Proc.devRef .tc main_arg15) := by
  after_results_simp

/-! ### The next two stretches: the edge weights, the first neighbourhood sum, the first layer's parameters as rows -/

/-- The inverse square root degrees as the second stretch selects them. -/
abbrev selOf : FVec Ideal S50000 .f32 :=
  select (V (Proc.devRef .tc main_v12)) (V (Proc.devRef .tc main_v13)) (broadcastInDim S50000 ![] bcast_S_S50000 (V (Proc.devRef .tc main_cst_2)))
open StableHlo in
theorem mid_v3 : StableHlo.after (hostOps0_2 (F := Ideal)) (StableHlo.after hostOps0_1 V) (Proc.devRef .tc main_v3) = V (Proc.devRef .tc main_v3) := by
  after_results_simp
open StableHlo in
theorem mid_v6 : StableHlo.after (hostOps0_2 (F := Ideal)) (StableHlo.after hostOps0_1 V) (Proc.devRef .tc main_v6) = V (Proc.devRef .tc main_v6) := by
  after_results_simp
open StableHlo in
theorem mid_arg2 : StableHlo.after (hostOps0_2 (F := Ideal)) (StableHlo.after hostOps0_1 V) (Proc.devRef .tc main_arg2) = V (Proc.devRef .tc main_arg2) := by
  after_results_simp
open StableHlo in
theorem mid_arg8 : StableHlo.after (hostOps0_2 (F := Ideal)) (StableHlo.after hostOps0_1 V) (Proc.devRef .tc main_arg8) = V (Proc.devRef .tc main_arg8) := by
  after_results_simp
open StableHlo in
theorem mid_arg9 : StableHlo.after (hostOps0_2 (F := Ideal)) (StableHlo.after hostOps0_1 V) (Proc.devRef .tc main_arg9) = V (Proc.devRef .tc main_arg9) := by
  after_results_simp
open StableHlo in
theorem mid_arg10 : StableHlo.after (hostOps0_2 (F := Ideal)) (StableHlo.after hostOps0_1 V) (Proc.devRef .tc main_arg10) = V (Proc.devRef .tc main_arg10) := by
  after_results_simp
open StableHlo in
theorem mid_arg11 : StableHlo.after (hostOps0_2 (F := Ideal)) (StableHlo.after hostOps0_1 V) (Proc.devRef .tc main_arg11) = V (Proc.devRef .tc main_arg11) := by
  after_results_simp
open StableHlo in
theorem mid_arg12 : StableHlo.after (hostOps0_2 (F := Ideal)) (StableHlo.after hostOps0_1 V) (Proc.devRef .tc main_arg12) = V (Proc.devRef .tc main_arg12) := by
  after_results_simp
open StableHlo in
theorem mid_arg13 : StableHlo.after (hostOps0_2 (F := Ideal)) (StableHlo.after hostOps0_1 V) (Proc.devRef .tc main_arg13) = V (Proc.devRef .tc main_arg13) := by
  after_results_simp
open StableHlo in
theorem mid_arg14 : StableHlo.after (hostOps0_2 (F := Ideal)) (StableHlo.after hostOps0_1 V) (Proc.devRef .tc main_arg14) = V (Proc.devRef .tc main_arg14) := by
  after_results_simp
open StableHlo in
theorem mid_arg15 : StableHlo.after (hostOps0_2 (F := Ideal)) (StableHlo.after hostOps0_1 V) (Proc.devRef .tc main_arg15) = V (Proc.devRef .tc main_arg15) := by
  after_results_simp
open StableHlo in
theorem mid_v29 : StableHlo.after (hostOps0_2 (F := Ideal)) (StableHlo.after hostOps0_1 V) (Proc.devRef .tc main_v29)
    = edgeOf (selOf V) (V (Proc.devRef .tc main_v3)) (V (Proc.devRef .tc main_v6)) := by
  after_results_simp; rfl
open StableHlo in
theorem mid_v42 : StableHlo.after (hostOps0_2 (F := Ideal)) (StableHlo.after hostOps0_1 V) (Proc.devRef .tc main_v42)
    = Cert.Gcn.agg128 (colOf (wrapIdx (V (Proc.devRef .tc main_v3)))) (colOf (V (Proc.devRef .tc main_v6)))
        (edgeOf (selOf V) (V (Proc.devRef .tc main_v3)) (V (Proc.devRef .tc main_v6))) (V (Proc.devRef .tc main_arg0)) := by
  after_results_simp
  exact agg_form _ _ (edgeOf (selOf V) (V (Proc.devRef .tc main_v3)) (V (Proc.devRef .tc main_v6))) _
open StableHlo in
theorem mid_v43 : StableHlo.after (hostOps0_2 (F := Ideal)) (StableHlo.after hostOps0_1 V) (Proc.devRef .tc main_v43) = Cert.Gcn.asRow (V (Proc.devRef .tc main_arg3)) := by
  after_results_simp
  exact row128_form _
open StableHlo in
theorem mid_v44 : StableHlo.after (hostOps0_2 (F := Ideal)) (StableHlo.after hostOps0_1 V) (Proc.devRef .tc main_v44) = Cert.Gcn.asRow (V (Proc.devRef .tc main_arg4)) := by
  after_results_simp
  exact row128_form _
open StableHlo in
theorem mid_v45 : StableHlo.after (hostOps0_2 (F := Ideal)) (StableHlo.after hostOps0_1 V) (Proc.devRef .tc main_v45) = Cert.Gcn.asRow (V (Proc.devRef .tc main_arg5)) := by
  after_results_simp
  exact row128_form _
open StableHlo in
theorem mid_v46 : StableHlo.after (hostOps0_2 (F := Ideal)) (StableHlo.after hostOps0_1 V) (Proc.devRef .tc main_v46) = Cert.Gcn.asRow (V (Proc.devRef .tc main_arg6)) := by
  after_results_simp
  exact row128_form _
open StableHlo in
theorem mid_v47 : StableHlo.after (hostOps0_2 (F := Ideal)) (StableHlo.after hostOps0_1 V) (Proc.devRef .tc main_v47) = Cert.Gcn.asRow (V (Proc.devRef .tc main_arg7)) := by
  after_results_simp
  exact row128_form _

/-! ### The stretch before the second layer -/

open StableHlo in
theorem ops1_v61 : StableHlo.after (hostOps1 (F := Ideal)) V (Proc.devRef .tc main_v61)
    = Cert.Gcn.agg128 (colOf (wrapIdx (V (Proc.devRef .tc main_v3)))) (colOf (V (Proc.devRef .tc main_v6))) (V (Proc.devRef .tc main_v29)) (V (Proc.devRef .tc main_v48)) := by
  after_results_simp
  exact agg_form _ _ _ _
open StableHlo in
theorem ops1_v62 : StableHlo.after (hostOps1 (F := Ideal)) V (Proc.devRef .tc main_v62) = Cert.Gcn.asRow (V (Proc.devRef .tc main_arg9)) := by
  after_results_simp
  exact row128_form _
open StableHlo in
theorem ops1_v63 : StableHlo.after (hostOps1 (F := Ideal)) V (Proc.devRef .tc main_v63) = Cert.Gcn.asRow (V (Proc.devRef .tc main_arg10)) := by
  after_results_simp
  exact row128_form _
open StableHlo in
theorem ops1_v64 : StableHlo.after (hostOps1 (F := Ideal)) V (Proc.devRef .tc main_v64) = Cert.Gcn.asRow (V (Proc.devRef .tc main_arg11)) := by
  after_results_simp
  exact row128_form _
open StableHlo in
theorem ops1_v65 : StableHlo.after (hostOps1 (F := Ideal)) V (Proc.devRef .tc main_v65) = Cert.Gcn.asRow (V (Proc.devRef .tc main_arg12)) := by
  after_results_simp
  exact row128_form _
open StableHlo in
theorem ops1_v66 : StableHlo.after (hostOps1 (F := Ideal)) V (Proc.devRef .tc main_v66) = Cert.Gcn.asRow (V (Proc.devRef .tc main_arg13)) := by
  after_results_simp
  exact row128_form _
open StableHlo in
theorem ops1_v3 : StableHlo.after (hostOps1 (F := Ideal)) V (Proc.devRef .tc main_v3) = V (Proc.devRef .tc main_v3) := by
  after_results_simp
open StableHlo in
theorem ops1_v6 : StableHlo.after (hostOps1 (F := Ideal)) V (Proc.devRef .tc main_v6) = V (Proc.devRef .tc main_v6) := by
  after_results_simp
open StableHlo in
theorem ops1_v29 : StableHlo.after (hostOps1 (F := Ideal)) V (Proc.devRef .tc main_v29) = V (Proc.devRef .tc main_v29) := by
  after_results_simp
open StableHlo in
theorem ops1_arg8 : StableHlo.after (hostOps1 (F := Ideal)) V (Proc.devRef .tc main_arg8) = V (Proc.devRef .tc main_arg8) := by
  after_results_simp
open StableHlo in
theorem ops1_arg14 : StableHlo.after (hostOps1 (F := Ideal)) V (Proc.devRef .tc main_arg14) = V (Proc.devRef .tc main_arg14) := by
  after_results_simp
open StableHlo in
theorem ops1_arg15 : StableHlo.after (hostOps1 (F := Ideal)) V (Proc.devRef .tc main_arg15) = V (Proc.devRef .tc main_arg15) := by
  after_results_simp

/-! ### The stretch before the last layer -/

open StableHlo in
theorem ops2_v80 : StableHlo.after (hostOps2 (F := Ideal)) V (Proc.devRef .tc main_v80)
    = Cert.Gcn.agg128 (colOf (wrapIdx (V (Proc.devRef .tc main_v3)))) (colOf (V (Proc.devRef .tc main_v6))) (V (Proc.devRef .tc main_v29)) (V (Proc.devRef .tc main_v67)) := by
  after_results_simp
  exact agg_form _ _ _ _
open StableHlo in
theorem ops2_v81 : StableHlo.after (hostOps2 (F := Ideal)) V (Proc.devRef .tc main_v81) = Cert.Gcn.asRow (V (Proc.devRef .tc main_arg15)) := by
  after_results_simp
  exact row64_form _
open StableHlo in
theorem ops2_arg14 : StableHlo.after (hostOps2 (F := Ideal)) V (Proc.devRef .tc main_arg14) = V (Proc.devRef .tc main_arg14) := by
  after_results_simp

end Stretches

/-! ## The boundaries of the run, read back to the arguments

`m ((c.tc : Thread nD τ).loc main_argk)` is argument `k`'s array on core `c` at launch. -/

section Boundaries
variable (c : Dev nD)

/-! ### Before the first layer -/

theorem W3_v3 : Gen.W3 m ρ c (Proc.devRef .tc main_v3) = srcRaw (m ((c.tc : Thread nD τ).loc main_arg1)) :=
  (mid_v3 _).trans (ops0_v3 (Gen.W0 m ρ c))
theorem W3_v6 : Gen.W3 m ρ c (Proc.devRef .tc main_v6) = dstRaw (m ((c.tc : Thread nD τ).loc main_arg1)) :=
  (mid_v6 _).trans (ops0_v6 (Gen.W0 m ρ c))
theorem W3_arg2 : Gen.W3 m ρ c (Proc.devRef .tc main_arg2) = (m ((c.tc : Thread nD τ).loc main_arg2)) :=
  (mid_arg2 _).trans (ops0_arg2 (Gen.W0 m ρ c))
theorem W3_arg8 : Gen.W3 m ρ c (Proc.devRef .tc main_arg8) = (m ((c.tc : Thread nD τ).loc main_arg8)) :=
  (mid_arg8 _).trans (ops0_arg8 (Gen.W0 m ρ c))
theorem W3_arg9 : Gen.W3 m ρ c (Proc.devRef .tc main_arg9) = (m ((c.tc : Thread nD τ).loc main_arg9)) :=
  (mid_arg9 _).trans (ops0_arg9 (Gen.W0 m ρ c))
theorem W3_arg10 : Gen.W3 m ρ c (Proc.devRef .tc main_arg10) = (m ((c.tc : Thread nD τ).loc main_arg10)) :=
  (mid_arg10 _).trans (ops0_arg10 (Gen.W0 m ρ c))
theorem W3_arg11 : Gen.W3 m ρ c (Proc.devRef .tc main_arg11) = (m ((c.tc : Thread nD τ).loc main_arg11)) :=
  (mid_arg11 _).trans (ops0_arg11 (Gen.W0 m ρ c))
theorem W3_arg12 : Gen.W3 m ρ c (Proc.devRef .tc main_arg12) = (m ((c.tc : Thread nD τ).loc main_arg12)) :=
  (mid_arg12 _).trans (ops0_arg12 (Gen.W0 m ρ c))
theorem W3_arg13 : Gen.W3 m ρ c (Proc.devRef .tc main_arg13) = (m ((c.tc : Thread nD τ).loc main_arg13)) :=
  (mid_arg13 _).trans (ops0_arg13 (Gen.W0 m ρ c))
theorem W3_arg14 : Gen.W3 m ρ c (Proc.devRef .tc main_arg14) = (m ((c.tc : Thread nD τ).loc main_arg14)) :=
  (mid_arg14 _).trans (ops0_arg14 (Gen.W0 m ρ c))
theorem W3_arg15 : Gen.W3 m ρ c (Proc.devRef .tc main_arg15) = (m ((c.tc : Thread nD τ).loc main_arg15)) :=
  (mid_arg15 _).trans (ops0_arg15 (Gen.W0 m ρ c))

/-- The edge weights. -/
theorem W3_v29 : Gen.W3 m ρ c (Proc.devRef .tc main_v29) = edgeW (m ((c.tc : Thread nD τ).loc main_arg1)) := by
  refine (mid_v29 (StableHlo.after hostOps0 (Gen.W0 m ρ c))).trans ?_
  unfold selOf
  rw [ops0_v12, ops0_v13, ops0_cst2, ops0_v3, ops0_v6]
  exact (edgeW_eq _).symm

/-- The first layer's operand: the neighbourhood sum of the input features. -/
theorem V3_v42 : Gen.V3 m ρ c main_v42
    = Cert.Gcn.agg128 (srcCol (m ((c.tc : Thread nD τ).loc main_arg1))) (dstCol (m ((c.tc : Thread nD τ).loc main_arg1))) (edgeW (m ((c.tc : Thread nD τ).loc main_arg1))) (m ((c.tc : Thread nD τ).loc main_arg0)) := by
  refine (mid_v42 (StableHlo.after hostOps0 (Gen.W0 m ρ c))).trans ?_
  unfold selOf
  rw [ops0_v12, ops0_v13, ops0_cst2, ops0_v3, ops0_v6, ops0_arg0]
  rfl

theorem V3_arg2 : Gen.V3 m ρ c main_arg2 = (m ((c.tc : Thread nD τ).loc main_arg2)) := W3_arg2 m ρ c
theorem V3_v43 : Gen.V3 m ρ c main_v43 = Cert.Gcn.asRow (m ((c.tc : Thread nD τ).loc main_arg3)) :=
  (mid_v43 _).trans (congrArg Cert.Gcn.asRow (ops0_arg3 (Gen.W0 m ρ c)))
theorem V3_v44 : Gen.V3 m ρ c main_v44 = Cert.Gcn.asRow (m ((c.tc : Thread nD τ).loc main_arg4)) :=
  (mid_v44 _).trans (congrArg Cert.Gcn.asRow (ops0_arg4 (Gen.W0 m ρ c)))
theorem V3_v45 : Gen.V3 m ρ c main_v45 = Cert.Gcn.asRow (m ((c.tc : Thread nD τ).loc main_arg5)) :=
  (mid_v45 _).trans (congrArg Cert.Gcn.asRow (ops0_arg5 (Gen.W0 m ρ c)))
theorem V3_v46 : Gen.V3 m ρ c main_v46 = Cert.Gcn.asRow (m ((c.tc : Thread nD τ).loc main_arg6)) :=
  (mid_v46 _).trans (congrArg Cert.Gcn.asRow (ops0_arg6 (Gen.W0 m ρ c)))
theorem V3_v47 : Gen.V3 m ρ c main_v47 = Cert.Gcn.asRow (m ((c.tc : Thread nD τ).loc main_arg7)) :=
  (mid_v47 _).trans (congrArg Cert.Gcn.asRow (ops0_arg7 (Gen.W0 m ρ c)))

/-! ### Across the first layer and up to the second -/

/-- The first layer's output array is what its write-backs leave. -/
theorem W4_v48 : Gen.W4 m ρ c (Proc.devRef .tc main_v48) = (Gen.dat0 (Gen.V3 m ρ) c).arrAt 7 cfg0.N := W4_arr m ρ c 7

theorem W4_v3 : Gen.W4 m ρ c (Proc.devRef .tc main_v3) = srcRaw (m ((c.tc : Thread nD τ).loc main_arg1)) :=
  (W4_of_ne m ρ c main_v3 (by decide)).trans (W3_v3 m ρ c)
theorem W4_v6 : Gen.W4 m ρ c (Proc.devRef .tc main_v6) = dstRaw (m ((c.tc : Thread nD τ).loc main_arg1)) :=
  (W4_of_ne m ρ c main_v6 (by decide)).trans (W3_v6 m ρ c)
theorem W4_v29 : Gen.W4 m ρ c (Proc.devRef .tc main_v29) = edgeW (m ((c.tc : Thread nD τ).loc main_arg1)) :=
  (W4_of_ne m ρ c main_v29 (by decide)).trans (W3_v29 m ρ c)
theorem W4_arg8 : Gen.W4 m ρ c (Proc.devRef .tc main_arg8) = (m ((c.tc : Thread nD τ).loc main_arg8)) :=
  (W4_of_ne m ρ c main_arg8 (by decide)).trans (W3_arg8 m ρ c)
theorem W4_arg9 : Gen.W4 m ρ c (Proc.devRef .tc main_arg9) = (m ((c.tc : Thread nD τ).loc main_arg9)) :=
  (W4_of_ne m ρ c main_arg9 (by decide)).trans (W3_arg9 m ρ c)
theorem W4_arg10 : Gen.W4 m ρ c (Proc.devRef .tc main_arg10) = (m ((c.tc : Thread nD τ).loc main_arg10)) :=
  (W4_of_ne m ρ c main_arg10 (by decide)).trans (W3_arg10 m ρ c)
theorem W4_arg11 : Gen.W4 m ρ c (Proc.devRef .tc main_arg11) = (m ((c.tc : Thread nD τ).loc main_arg11)) :=
  (W4_of_ne m ρ c main_arg11 (by decide)).trans (W3_arg11 m ρ c)
theorem W4_arg12 : Gen.W4 m ρ c (Proc.devRef .tc main_arg12) = (m ((c.tc : Thread nD τ).loc main_arg12)) :=
  (W4_of_ne m ρ c main_arg12 (by decide)).trans (W3_arg12 m ρ c)
theorem W4_arg13 : Gen.W4 m ρ c (Proc.devRef .tc main_arg13) = (m ((c.tc : Thread nD τ).loc main_arg13)) :=
  (W4_of_ne m ρ c main_arg13 (by decide)).trans (W3_arg13 m ρ c)
theorem W4_arg14 : Gen.W4 m ρ c (Proc.devRef .tc main_arg14) = (m ((c.tc : Thread nD τ).loc main_arg14)) :=
  (W4_of_ne m ρ c main_arg14 (by decide)).trans (W3_arg14 m ρ c)
theorem W4_arg15 : Gen.W4 m ρ c (Proc.devRef .tc main_arg15) = (m ((c.tc : Thread nD τ).loc main_arg15)) :=
  (W4_of_ne m ρ c main_arg15 (by decide)).trans (W3_arg15 m ρ c)
theorem W5_v3 : Gen.W5 m ρ c (Proc.devRef .tc main_v3) = srcRaw (m ((c.tc : Thread nD τ).loc main_arg1)) :=
  (ops1_v3 _).trans (W4_v3 m ρ c)
theorem W5_v6 : Gen.W5 m ρ c (Proc.devRef .tc main_v6) = dstRaw (m ((c.tc : Thread nD τ).loc main_arg1)) :=
  (ops1_v6 _).trans (W4_v6 m ρ c)
theorem W5_v29 : Gen.W5 m ρ c (Proc.devRef .tc main_v29) = edgeW (m ((c.tc : Thread nD τ).loc main_arg1)) :=
  (ops1_v29 _).trans (W4_v29 m ρ c)
theorem W5_arg14 : Gen.W5 m ρ c (Proc.devRef .tc main_arg14) = (m ((c.tc : Thread nD τ).loc main_arg14)) :=
  (ops1_arg14 _).trans (W4_arg14 m ρ c)
theorem W5_arg15 : Gen.W5 m ρ c (Proc.devRef .tc main_arg15) = (m ((c.tc : Thread nD τ).loc main_arg15)) :=
  (ops1_arg15 _).trans (W4_arg15 m ρ c)

/-- The second layer's operand: the neighbourhood sum of the first layer's output. -/
theorem V5_v61 : Gen.V5 m ρ c main_v61
    = Cert.Gcn.agg128 (srcCol (m ((c.tc : Thread nD τ).loc main_arg1))) (dstCol (m ((c.tc : Thread nD τ).loc main_arg1))) (edgeW (m ((c.tc : Thread nD τ).loc main_arg1))) (Gen.W4 m ρ c (Proc.devRef .tc main_v48)) := by
  refine (ops1_v61 (Gen.W4 m ρ c)).trans ?_
  rw [W4_v3, W4_v6, W4_v29]
  rfl

theorem V5_arg8 : Gen.V5 m ρ c main_arg8 = (m ((c.tc : Thread nD τ).loc main_arg8)) := (ops1_arg8 _).trans (W4_arg8 m ρ c)
theorem V5_v62 : Gen.V5 m ρ c main_v62 = Cert.Gcn.asRow (m ((c.tc : Thread nD τ).loc main_arg9)) :=
  (ops1_v62 _).trans (congrArg Cert.Gcn.asRow (W4_arg9 m ρ c))
theorem V5_v63 : Gen.V5 m ρ c main_v63 = Cert.Gcn.asRow (m ((c.tc : Thread nD τ).loc main_arg10)) :=
  (ops1_v63 _).trans (congrArg Cert.Gcn.asRow (W4_arg10 m ρ c))
theorem V5_v64 : Gen.V5 m ρ c main_v64 = Cert.Gcn.asRow (m ((c.tc : Thread nD τ).loc main_arg11)) :=
  (ops1_v64 _).trans (congrArg Cert.Gcn.asRow (W4_arg11 m ρ c))
theorem V5_v65 : Gen.V5 m ρ c main_v65 = Cert.Gcn.asRow (m ((c.tc : Thread nD τ).loc main_arg12)) :=
  (ops1_v65 _).trans (congrArg Cert.Gcn.asRow (W4_arg12 m ρ c))
theorem V5_v66 : Gen.V5 m ρ c main_v66 = Cert.Gcn.asRow (m ((c.tc : Thread nD τ).loc main_arg13)) :=
  (ops1_v66 _).trans (congrArg Cert.Gcn.asRow (W4_arg13 m ρ c))

/-! ### Across the second layer and up to the last -/

/-- The second layer's output array is what its write-backs leave. -/
theorem W6_v67 : Gen.W6 m ρ c (Proc.devRef .tc main_v67) = (Gen.dat1 (Gen.V5 m ρ) c).arrAt 7 cfg1.N := W6_arr m ρ c 7

theorem W6_v3 : Gen.W6 m ρ c (Proc.devRef .tc main_v3) = srcRaw (m ((c.tc : Thread nD τ).loc main_arg1)) :=
  (W6_of_ne m ρ c main_v3 (by decide)).trans (W5_v3 m ρ c)
theorem W6_v6 : Gen.W6 m ρ c (Proc.devRef .tc main_v6) = dstRaw (m ((c.tc : Thread nD τ).loc main_arg1)) :=
  (W6_of_ne m ρ c main_v6 (by decide)).trans (W5_v6 m ρ c)
theorem W6_v29 : Gen.W6 m ρ c (Proc.devRef .tc main_v29) = edgeW (m ((c.tc : Thread nD τ).loc main_arg1)) :=
  (W6_of_ne m ρ c main_v29 (by decide)).trans (W5_v29 m ρ c)
theorem W6_arg14 : Gen.W6 m ρ c (Proc.devRef .tc main_arg14) = (m ((c.tc : Thread nD τ).loc main_arg14)) :=
  (W6_of_ne m ρ c main_arg14 (by decide)).trans (W5_arg14 m ρ c)
theorem W6_arg15 : Gen.W6 m ρ c (Proc.devRef .tc main_arg15) = (m ((c.tc : Thread nD τ).loc main_arg15)) :=
  (W6_of_ne m ρ c main_arg15 (by decide)).trans (W5_arg15 m ρ c)

/-- The last layer's operand: the neighbourhood sum of the second layer's output. -/
theorem V7_v80 : Gen.V7 m ρ c main_v80
    = Cert.Gcn.agg128 (srcCol (m ((c.tc : Thread nD τ).loc main_arg1))) (dstCol (m ((c.tc : Thread nD τ).loc main_arg1))) (edgeW (m ((c.tc : Thread nD τ).loc main_arg1))) (Gen.W6 m ρ c (Proc.devRef .tc main_v67)) := by
  refine (ops2_v80 (Gen.W6 m ρ c)).trans ?_
  rw [W6_v3, W6_v6, W6_v29]
  rfl

theorem V7_arg14 : Gen.V7 m ρ c main_arg14 = (m ((c.tc : Thread nD τ).loc main_arg14)) := (ops2_arg14 _).trans (W6_arg14 m ρ c)

theorem V7_v81 : Gen.V7 m ρ c main_v81 = Cert.Gcn.asRow (m ((c.tc : Thread nD τ).loc main_arg15)) :=
  (ops2_v81 _).trans (congrArg Cert.Gcn.asRow (W6_arg15 m ρ c))

/-- The result array is what the last layer's write-backs leave. -/
theorem W8_v82 : Gen.W8 m ρ c (Proc.devRef .tc main_v82) = (Gen.dat2 (Gen.V7 m ρ) c).arrAt 3 cfg2.N := W8_arr m ρ c 3

/-! ## The composition -/

/-- The first layer's output array, given the layer's output as a function of the arrays it finds. -/
theorem layer0_value
    (h0 : ∀ (V : (c : Dev nD) → (b : Ref sig .tc) → Buf (Elt Ideal) ((c : Thread nD τ).loc b)) (c : Dev nD),
      (Gen.dat0 (F := Ideal) V c).arrAt 7 cfg0.N
        = Cert.Gcn.denseRows (V c main_v42) (V c main_arg2) (V c main_v43) (V c main_v44) (V c main_v45) (V c main_v46) (V c main_v47)) :
    Gen.W4 m ρ c (Proc.devRef .tc main_v48)
      = Cert.Gcn.kerLayer (srcCol (m ((c.tc : Thread nD τ).loc main_arg1))) (dstCol (m ((c.tc : Thread nD τ).loc main_arg1))) (edgeW (m ((c.tc : Thread nD τ).loc main_arg1))) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_v48 m ρ c).trans ((h0 (Gen.V3 m ρ) c).trans ?_)
  rw [V3_v42 m ρ c, V3_arg2 m ρ c, V3_v43 m ρ c, V3_v44 m ρ c, V3_v45 m ρ c, V3_v46 m ρ c, V3_v47 m ρ c]
  rfl

/-- The second layer's output array, likewise. -/
theorem layer1_value
    (h0 : ∀ (V : (c : Dev nD) → (b : Ref sig .tc) → Buf (Elt Ideal) ((c : Thread nD τ).loc b)) (c : Dev nD),
      (Gen.dat0 (F := Ideal) V c).arrAt 7 cfg0.N
        = Cert.Gcn.denseRows (V c main_v42) (V c main_arg2) (V c main_v43) (V c main_v44) (V c main_v45) (V c main_v46) (V c main_v47))
    (h1 : ∀ (V : (c : Dev nD) → (b : Ref sig .tc) → Buf (Elt Ideal) ((c : Thread nD τ).loc b)) (c : Dev nD),
      (Gen.dat1 (F := Ideal) V c).arrAt 7 cfg1.N
        = Cert.Gcn.denseRows (V c main_v61) (V c main_arg8) (V c main_v62) (V c main_v63) (V c main_v64) (V c main_v65) (V c main_v66)) :
    Gen.W6 m ρ c (Proc.devRef .tc main_v67)
      = Cert.Gcn.kerLayer (srcCol (m ((c.tc : Thread nD τ).loc main_arg1))) (dstCol (m ((c.tc : Thread nD τ).loc main_arg1))) (edgeW (m ((c.tc : Thread nD τ).loc main_arg1)))
          (Cert.Gcn.kerLayer (srcCol (m ((c.tc : Thread nD τ).loc main_arg1))) (dstCol (m ((c.tc : Thread nD τ).loc main_arg1))) (edgeW (m ((c.tc : Thread nD τ).loc main_arg1))) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
          (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W6_v67 m ρ c).trans ((h1 (Gen.V5 m ρ) c).trans ?_)
  rw [V5_v61 m ρ c, layer0_value m ρ c h0, V5_arg8 m ρ c, V5_v62 m ρ c, V5_v63 m ρ c, V5_v64 m ρ c, V5_v65 m ρ c, V5_v66 m ρ c]
  rfl

/-- Given each dense layer's output array as one function of the arrays the layer finds, the result buffer holds the
    network that aggregates first in every layer, of the arguments at launch. -/
theorem kernel_value
    (h0 : ∀ (V : (c : Dev nD) → (b : Ref sig .tc) → Buf (Elt Ideal) ((c : Thread nD τ).loc b)) (c : Dev nD),
      (Gen.dat0 (F := Ideal) V c).arrAt 7 cfg0.N
        = Cert.Gcn.denseRows (V c main_v42) (V c main_arg2) (V c main_v43) (V c main_v44) (V c main_v45) (V c main_v46) (V c main_v47))
    (h1 : ∀ (V : (c : Dev nD) → (b : Ref sig .tc) → Buf (Elt Ideal) ((c : Thread nD τ).loc b)) (c : Dev nD),
      (Gen.dat1 (F := Ideal) V c).arrAt 7 cfg1.N
        = Cert.Gcn.denseRows (V c main_v61) (V c main_arg8) (V c main_v62) (V c main_v63) (V c main_v64) (V c main_v65) (V c main_v66))
    (h2 : ∀ (V : (c : Dev nD) → (b : Ref sig .tc) → Buf (Elt Ideal) ((c : Thread nD τ).loc b)) (c : Dev nD),
      (Gen.dat2 (F := Ideal) V c).arrAt 3 cfg2.N = Cert.Gcn.lastRows (V c main_v80) (V c main_arg14) (V c main_v81)) :
    Gen.W8 m ρ c (Proc.devRef .tc main_v82)
      = Cert.Gcn.kerOut (srcCol (m ((c.tc : Thread nD τ).loc main_arg1))) (dstCol (m ((c.tc : Thread nD τ).loc main_arg1))) (edgeW (m ((c.tc : Thread nD τ).loc main_arg1))) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
          (m ((c.tc : Thread nD τ).loc main_arg14)) (m ((c.tc : Thread nD τ).loc main_arg15)) := by
  refine (W8_v82 m ρ c).trans ((h2 (Gen.V7 m ρ) c).trans ?_)
  rw [V7_v80 m ρ c, layer1_value m ρ c h0 h1, V7_arg14 m ρ c, V7_v81 m ρ c]
  rfl

end Boundaries

end Cert.KernelIdeal.RunValue

end
-- ==== Proof.Columns.lean ====
/-
  The two programs derive the same bookkeeping from the edge list.

  Both programs compute, from the edge array alone and by the same operations in the same order, the column of source
  nodes (self loops appended, negative numbers counted from the end), the column of target nodes, and the weight of
  every edge (the product of its end nodes' guarded inverse square root degrees).  One side names them by what they
  mean, the other one operation at a time; unfolded, they are one term.
-/
import proofs.«115181_j44435731644444_1_alg».proof.Proof.KernelHost
import proofs.«115181_j44435731644444_1_alg».proof.Proof.ReadPatched

noncomputable section

namespace Cert.Proof.Columns

open Idealize.ShloMosaic

/-- The source column is the same function of the edge array in both programs. -/
theorem srcCol_eq (x1 : IVec Cert.KernelIdeal.S2x800000 32) :
    Cert.KernelIdeal.RunValue.srcCol x1 = Cert.ReferenceIdeal.ReadP.val_main_v37 (F := Ideal) x1 := rfl

/-- The target column is the same function of the edge array in both programs. -/
theorem dstCol_eq (x1 : IVec Cert.KernelIdeal.S2x800000 32) :
    Cert.KernelIdeal.RunValue.dstCol x1 = Cert.ReferenceIdeal.ReadP.val_main_v42 (F := Ideal) x1 := rfl

/-- The edge weights are the same function of the edge array in both programs. -/
theorem edgeW_eq (x1 : IVec Cert.KernelIdeal.S2x800000 32) :
    Cert.KernelIdeal.RunValue.edgeW x1 = Cert.ReferenceIdeal.ReadP.val_main_v29 (F := Ideal) x1 := rfl

end Cert.Proof.Columns

end
-- ==== Proof.RefValue.lean ====
/-
  The reference program's result, restated over the shared vocabulary of the three-layer graph convolution.

  The reference multiplies first and aggregates after.  Each layer is read in four steps: the product with the weight
  matrix is the array `mm`; the gather of source rows, the scaling by the edge weight and the scatter-add onto the target
  rows are the neighbourhood sum `agg128` (`agg64` in the last layer) over the program's own source column, target column
  and edge weights; the bias, the normalisation and the activation, read index by index, are `act`; together a hidden
  layer is `refLayer`.  The three layers composed, and the last bias added, are `refOut`.
-/
import proofs.«115181_j44435731644444_1_alg».proof.Proof.ReadPatched
import proofs.«115181_j44435731644444_1_alg».proof.Proof.Spec
import Idealize.ShloMosaic.Lib.IdealHost

noncomputable section

namespace Cert.ReferenceIdeal.RefValue

open Cert.ReferenceIdeal Cert.ReferenceIdeal.Gen Cert.ReferenceIdeal.ReadP Idealize.ShloMosaic Idealize.ShloMosaic.ValueIdx
open scoped BigOperators

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 x4 x5 x6 x7 : (⟨S128, .f32⟩ : BufTy).Contents (Elt Ideal))
  (x8 : (⟨S128x128, .f32⟩ : BufTy).Contents (Elt Ideal)) (x9 x10 x11 x12 x13 : (⟨S128, .f32⟩ : BufTy).Contents (Elt Ideal))
  (x14 : (⟨S128x64, .f32⟩ : BufTy).Contents (Elt Ideal)) (x15 : (⟨S64, .f32⟩ : BufTy).Contents (Elt Ideal))

/-! ## The records and the constant operands -/

/-- The program's 128-wide scatter record is the specification's. -/
theorem scatter128_eq : scatter_S50000x128_S850000x1_S850000x128_1_0_0_1 = Cert.Gcn.sd128 := rfl
/-- The program's 128-wide gather record is the specification's. -/
theorem gather128_eq : gather_S50000x128_S850000x1_S850000x128_1_0_n_n_0_1_1128 = Cert.Gcn.gd128 := rfl

/-! ## Layer 1 -/

/-- The product's left operand is read at row `i 0`, column `k`. -/
theorem lidx30 (i : S50000x128.Idx) (k : Fin 128) : lidx_main_v30 i k = ix2 (i 0) k :=
  funext fun a => by match a with | ⟨0, _⟩ => rfl | ⟨1, _⟩ => rfl
/-- The product's right operand is read at row `k`, column `i 1`. -/
theorem ridx30 (i : S50000x128.Idx) (k : Fin 128) : ridx_main_v30 i k = ix2 k (i 1) :=
  funext fun a => by match a with | ⟨0, _⟩ => rfl | ⟨1, _⟩ => rfl

/-- The first product is `x0 · W1`. -/
theorem prod1 : val_main_v30 (F := Ideal) x0 x2 = Cert.Gcn.mm (C := 128) x0 x2 := by
  funext i
  rw [val_main_v30_apply]
  unfold Cert.Gcn.mm Cert.Gcn.dotAt
  refine Finset.sum_congr rfl fun k _ => ?_
  rw [lidx30, ridx30]
  rfl

/-- The accumulator the first scatter adds onto is zero everywhere. -/
theorem zero41 : val_main_v41 (F := Ideal) = fun _ => 0 := by
  funext i
  rw [val_main_v41_apply, val_main_cst_8_apply, Ideal.ofBits_def, Ideal.ofBits_zero_f32]

/-- The first scatter's updates: each gathered source row scaled by its edge's weight. -/
theorem upd40 : val_main_v40 (F := Ideal) x0 x1 x2
    = fun j => val_main_v29 (F := Ideal) x1 (ix1 (j 0))
        * Host.gather Cert.Gcn.gd128 (val_main_v30 (F := Ideal) x0 x2) (val_main_v37 (F := Ideal) x1) j := by
  funext j
  rw [val_main_v40_apply, val_main_v39_apply, val_main_v31_apply, Ideal.mulf_def]
  have e : idx_main_v31 (idx_main_v39 j) = ix1 (j 0) := funext fun a => by match a with | ⟨0, _⟩ => rfl
  rw [e]
  unfold val_main_v38
  rw [gather128_eq]
  rfl

/-- The first aggregation is the neighbourhood sum of the first product. -/
theorem agg1 : val_main_v43 (F := Ideal) x0 x1 x2
    = Cert.Gcn.agg128 (val_main_v37 (F := Ideal) x1) (val_main_v42 (F := Ideal) x1) (val_main_v29 (F := Ideal) x1)
        (val_main_v30 (F := Ideal) x0 x2) := by
  unfold val_main_v43 Cert.Gcn.agg128
  rw [zero41, upd40, scatter128_eq]
  rfl

/-- A per-feature parameter broadcast to a row and then to every node is read at the feature `i 1`. -/
theorem idx44 (i : S50000x128.Idx) : idx_main_v44 (idx_main_v45 i) = ix1 (i 1) :=
  funext fun a => by match a with | ⟨0, _⟩ => rfl
theorem idx47 (i : S50000x128.Idx) : idx_main_v47 (idx_main_v48 i) = ix1 (i 1) :=
  funext fun a => by match a with | ⟨0, _⟩ => rfl
theorem idx53 (i : S50000x128.Idx) : idx_main_v53 (idx_main_v54 i) = ix1 (i 1) :=
  funext fun a => by match a with | ⟨0, _⟩ => rfl
theorem idx56 (i : S50000x128.Idx) : idx_main_v56 (idx_main_v57 i) = ix1 (i 1) :=
  funext fun a => by match a with | ⟨0, _⟩ => rfl
theorem idx59 (i : S50000x128.Idx) : idx_main_v59 (idx_main_v60 i) = ix1 (i 1) :=
  funext fun a => by match a with | ⟨0, _⟩ => rfl

/-- The first layer's pointwise chain after the aggregation: bias, normalisation, gain and shift, then `y · σ(y)`. -/
theorem act1 (i : S50000x128.Idx) : val_main_v62 (F := Ideal) x0 x1 x2 x3 x4 x5 x6 x7 i
    = Cert.Gcn.act (val_main_v43 (F := Ideal) x0 x1 x2 i) (x3 (ix1 (i 1))) (x6 (ix1 (i 1))) (x7 (ix1 (i 1)))
        (x4 (ix1 (i 1))) (x5 (ix1 (i 1))) := by
  rw [val_main_v62_apply, val_main_call1_v5_apply, val_main_call1_v4_apply, val_main_call1_cst_0_apply,
    val_main_call1_v3_apply, val_main_call1_v2_apply, val_main_call1_cst_apply, val_main_call1_v1_apply,
    val_main_call1_v0_apply, val_main_v61_apply, val_main_v60_apply, val_main_v59_apply, val_main_v58_apply,
    val_main_v57_apply, val_main_v56_apply, val_main_v55_apply, val_main_v54_apply, val_main_v53_apply,
    val_main_v52_apply, val_main_v51_apply, val_main_v50_apply, val_main_cst_9_apply, val_main_v49_apply,
    val_main_v48_apply, val_main_v47_apply, val_main_v46_apply, val_main_v45_apply, val_main_v44_apply]
  simp only [idx44, idx47, idx53, idx56, idx59, Ideal.mulf_def, Ideal.addf_def, Ideal.subf_def, Ideal.hostNegf_def,
    Ideal.negf_def, Ideal.hostDivf_def, Ideal.hostUnary_exp_def, Ideal.hostUnary_rsqrt_def, Ideal.ofBits_def,
    Ideal.ofBits_one_f32]
  rfl

/-- The first hidden layer, multiplying first. -/
theorem layer1 : val_main_v62 (F := Ideal) x0 x1 x2 x3 x4 x5 x6 x7
    = Cert.Gcn.refLayer (val_main_v37 (F := Ideal) x1) (val_main_v42 (F := Ideal) x1) (val_main_v29 (F := Ideal) x1)
        x0 x2 x3 x4 x5 x6 x7 := by
  funext i
  rw [act1, agg1, prod1]
  rfl

/-! ## Layer 2 -/

/-- The second layer's source column is the first layer's: the same operations on the edge list. -/
theorem src2 : val_main_v70 (F := Ideal) x1 = val_main_v37 (F := Ideal) x1 := rfl
/-- The second layer's target column is the first layer's. -/
theorem dst2 : val_main_v75 (F := Ideal) x1 = val_main_v42 (F := Ideal) x1 := rfl

theorem lidx63 (i : S50000x128.Idx) (k : Fin 128) : lidx_main_v63 i k = ix2 (i 0) k :=
  funext fun a => by match a with | ⟨0, _⟩ => rfl | ⟨1, _⟩ => rfl
theorem ridx63 (i : S50000x128.Idx) (k : Fin 128) : ridx_main_v63 i k = ix2 k (i 1) :=
  funext fun a => by match a with | ⟨0, _⟩ => rfl | ⟨1, _⟩ => rfl

/-- The second product is the first layer's output times `W2`. -/
theorem prod2 : val_main_v63 (F := Ideal) x0 x1 x2 x3 x4 x5 x6 x7 x8
    = Cert.Gcn.mm (C := 128) (val_main_v62 (F := Ideal) x0 x1 x2 x3 x4 x5 x6 x7) x8 := by
  funext i
  rw [val_main_v63_apply]
  unfold Cert.Gcn.mm Cert.Gcn.dotAt
  refine Finset.sum_congr rfl fun k _ => ?_
  rw [lidx63, ridx63]
  rfl

/-- The accumulator the second scatter adds onto is zero everywhere. -/
theorem zero74 : val_main_v74 (F := Ideal) = fun _ => 0 := by
  funext i
  rw [val_main_v74_apply, val_main_cst_12_apply, Ideal.ofBits_def, Ideal.ofBits_zero_f32]

/-- The second scatter's updates: each gathered source row scaled by its edge's weight. -/
theorem upd73 : val_main_v73 (F := Ideal) x0 x1 x2 x3 x4 x5 x6 x7 x8
    = fun j => val_main_v29 (F := Ideal) x1 (ix1 (j 0))
        * Host.gather Cert.Gcn.gd128 (val_main_v63 (F := Ideal) x0 x1 x2 x3 x4 x5 x6 x7 x8) (val_main_v37 (F := Ideal) x1) j := by
  funext j
  rw [val_main_v73_apply, val_main_v72_apply, val_main_v64_apply, Ideal.mulf_def]
  have e : idx_main_v64 (idx_main_v72 j) = ix1 (j 0) := funext fun a => by match a with | ⟨0, _⟩ => rfl
  rw [e]
  unfold val_main_v71
  rw [gather128_eq, src2]
  rfl

/-- The second aggregation is the neighbourhood sum of the second product. -/
theorem agg2 : val_main_v76 (F := Ideal) x0 x1 x2 x3 x4 x5 x6 x7 x8
    = Cert.Gcn.agg128 (val_main_v37 (F := Ideal) x1) (val_main_v42 (F := Ideal) x1) (val_main_v29 (F := Ideal) x1)
        (val_main_v63 (F := Ideal) x0 x1 x2 x3 x4 x5 x6 x7 x8) := by
  unfold val_main_v76 Cert.Gcn.agg128
  rw [zero74, upd73, scatter128_eq, dst2]
  rfl

theorem idx77 (i : S50000x128.Idx) : idx_main_v77 (idx_main_v78 i) = ix1 (i 1) :=
  funext fun a => by match a with | ⟨0, _⟩ => rfl
theorem idx80 (i : S50000x128.Idx) : idx_main_v80 (idx_main_v81 i) = ix1 (i 1) :=
  funext fun a => by match a with | ⟨0, _⟩ => rfl
theorem idx86 (i : S50000x128.Idx) : idx_main_v86 (idx_main_v87 i) = ix1 (i 1) :=
  funext fun a => by match a with | ⟨0, _⟩ => rfl
theorem idx89 (i : S50000x128.Idx) : idx_main_v89 (idx_main_v90 i) = ix1 (i 1) :=
  funext fun a => by match a with | ⟨0, _⟩ => rfl
theorem idx92 (i : S50000x128.Idx) : idx_main_v92 (idx_main_v93 i) = ix1 (i 1) :=
  funext fun a => by match a with | ⟨0, _⟩ => rfl

/-- The second layer's pointwise chain after the aggregation. -/
theorem act2 (i : S50000x128.Idx) : val_main_v95 (F := Ideal) x0 x1 x2 x3 x4 x5 x6 x7 x8 x9 x10 x11 x12 x13 i
    = Cert.Gcn.act (val_main_v76 (F := Ideal) x0 x1 x2 x3 x4 x5 x6 x7 x8 i) (x9 (ix1 (i 1))) (x12 (ix1 (i 1)))
        (x13 (ix1 (i 1))) (x10 (ix1 (i 1))) (x11 (ix1 (i 1))) := by
  rw [val_main_v95_apply, val_main_call2_v5_apply, val_main_call2_v4_apply, val_main_call2_cst_0_apply,
    val_main_call2_v3_apply, val_main_call2_v2_apply, val_main_call2_cst_apply, val_main_call2_v1_apply,
    val_main_call2_v0_apply, val_main_v94_apply, val_main_v93_apply, val_main_v92_apply, val_main_v91_apply,
    val_main_v90_apply, val_main_v89_apply, val_main_v88_apply, val_main_v87_apply, val_main_v86_apply,
    val_main_v85_apply, val_main_v84_apply, val_main_v83_apply, val_main_cst_13_apply, val_main_v82_apply,
    val_main_v81_apply, val_main_v80_apply, val_main_v79_apply, val_main_v78_apply, val_main_v77_apply]
  simp only [idx77, idx80, idx86, idx89, idx92, Ideal.mulf_def, Ideal.addf_def, Ideal.subf_def, Ideal.hostNegf_def,
    Ideal.negf_def, Ideal.hostDivf_def, Ideal.hostUnary_exp_def, Ideal.hostUnary_rsqrt_def, Ideal.ofBits_def,
    Ideal.ofBits_one_f32]
  rfl

/-- The second hidden layer, multiplying first, on the first layer's output. -/
theorem layer2 : val_main_v95 (F := Ideal) x0 x1 x2 x3 x4 x5 x6 x7 x8 x9 x10 x11 x12 x13
    = Cert.Gcn.refLayer (val_main_v37 (F := Ideal) x1) (val_main_v42 (F := Ideal) x1) (val_main_v29 (F := Ideal) x1)
        (val_main_v62 (F := Ideal) x0 x1 x2 x3 x4 x5 x6 x7) x8 x9 x10 x11 x12 x13 := by
  funext i
  rw [act2, agg2, prod2]
  rfl

end Cert.ReferenceIdeal.RefValue

end
-- ==== Proof.RefValue3.lean ====
/-
  The last layer of the reference program, restated over the shared vocabulary of the graph convolution.

  The last layer multiplies the previous layer's output by the weight matrix W3 (the array `mm`), gathers the product's
  rows along the source column, scales each gathered row by its edge's weight, adds the scaled rows onto the target rows
  starting from zero (the neighbourhood sum `agg64`), and adds the bias b3 to every row.  The source column, the target
  column and the edge weights are recomputed by the program for this layer from the edge list; they are the same
  operations of the edge list as the first layer's, hence the same arrays.
-/
import proofs.«115181_j44435731644444_1_alg».proof.Proof.ReadPatched
import proofs.«115181_j44435731644444_1_alg».proof.Proof.Spec
import Idealize.ShloMosaic.Lib.IdealHost

noncomputable section

namespace Cert.ReferenceIdeal.RefValue3

open Cert.ReferenceIdeal Cert.ReferenceIdeal.Gen Cert.ReferenceIdeal.ReadP Idealize.ShloMosaic Idealize.ShloMosaic.ValueIdx
open scoped BigOperators

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 x4 x5 x6 x7 : (⟨S128, .f32⟩ : BufTy).Contents (Elt Ideal))
  (x8 : (⟨S128x128, .f32⟩ : BufTy).Contents (Elt Ideal)) (x9 x10 x11 x12 x13 : (⟨S128, .f32⟩ : BufTy).Contents (Elt Ideal))
  (x14 : (⟨S128x64, .f32⟩ : BufTy).Contents (Elt Ideal)) (x15 : (⟨S64, .f32⟩ : BufTy).Contents (Elt Ideal))

/-! ## The records -/

/-- The program's 64-wide scatter record is the specification's. -/
theorem scatter64_eq : scatter_S50000x64_S850000x1_S850000x64_1_0_0_1 = Cert.Gcn.sd64 := rfl
/-- The program's 64-wide gather record is the specification's. -/
theorem gather64_eq : gather_S50000x64_S850000x1_S850000x64_1_0_n_n_0_1_164 = Cert.Gcn.gd64 := rfl

/-! ## The product with W3 -/

/-- The product's left operand is read at row `i 0`, column `k`. -/
theorem lidx96 (i : S50000x64.Idx) (k : Fin 128) : lidx_main_v96 i k = ix2 (i 0) k :=
  funext fun a => by match a with | ⟨0, _⟩ => rfl | ⟨1, _⟩ => rfl
/-- The product's right operand is read at row `k`, column `i 1`. -/
theorem ridx96 (i : S50000x64.Idx) (k : Fin 128) : ridx_main_v96 i k = ix2 k (i 1) :=
  funext fun a => by match a with | ⟨0, _⟩ => rfl | ⟨1, _⟩ => rfl

/-- The last product is the previous layer's output times W3. -/
theorem prod3 : val_main_v96 (F := Ideal) x0 x1 x2 x3 x4 x5 x6 x7 x8 x9 x10 x11 x12 x13 x14
    = Cert.Gcn.mm (C := 64) (val_main_v95 (F := Ideal) x0 x1 x2 x3 x4 x5 x6 x7 x8 x9 x10 x11 x12 x13) x14 := by
  funext i
  rw [val_main_v96_apply]
  unfold Cert.Gcn.mm Cert.Gcn.dotAt
  refine Finset.sum_congr rfl fun k _ => ?_
  rw [lidx96, ridx96]
  rfl

/-! ## The columns are the first layer's -/

/-- The source column of the last layer (negative node numbers wrapped) is the first layer's: the same operations
    of the edge list. -/
theorem src103 : val_main_v103 (F := Ideal) x1 = val_main_v37 (F := Ideal) x1 := rfl
/-- The target column of the last layer is the first layer's. -/
theorem dst108 : val_main_v108 (F := Ideal) x1 = val_main_v42 (F := Ideal) x1 := rfl

/-! ## The neighbourhood sum -/

/-- The accumulator the last scatter adds onto is zero everywhere. -/
theorem zero107 : val_main_v107 (F := Ideal) = fun _ => 0 := by
  funext i
  rw [val_main_v107_apply, val_main_cst_16_apply, Ideal.ofBits_def, Ideal.ofBits_zero_f32]

/-- The last scatter's updates: each gathered source row of the product scaled by its edge's weight. -/
theorem upd106 : val_main_v106 (F := Ideal) x0 x1 x2 x3 x4 x5 x6 x7 x8 x9 x10 x11 x12 x13 x14
    = fun j => val_main_v29 (F := Ideal) x1 (ix1 (j 0))
        * Host.gather Cert.Gcn.gd64 (val_main_v96 (F := Ideal) x0 x1 x2 x3 x4 x5 x6 x7 x8 x9 x10 x11 x12 x13 x14)
            (val_main_v37 (F := Ideal) x1) j := by
  funext j
  rw [val_main_v106_apply, val_main_v105_apply, val_main_v97_apply, Ideal.mulf_def]
  have e : idx_main_v97 (idx_main_v105 j) = ix1 (j 0) := funext fun a => by match a with | ⟨0, _⟩ => rfl
  rw [e]
  unfold val_main_v104
  rw [gather64_eq, src103]
  rfl

/-- The last aggregation is the neighbourhood sum of the last product, over the first layer's columns and weights. -/
theorem agg3 : val_main_v109 (F := Ideal) x0 x1 x2 x3 x4 x5 x6 x7 x8 x9 x10 x11 x12 x13 x14
    = Cert.Gcn.agg64 (val_main_v37 (F := Ideal) x1) (val_main_v42 (F := Ideal) x1) (val_main_v29 (F := Ideal) x1)
        (val_main_v96 (F := Ideal) x0 x1 x2 x3 x4 x5 x6 x7 x8 x9 x10 x11 x12 x13 x14) := by
  unfold val_main_v109 Cert.Gcn.agg64
  rw [zero107, upd106, scatter64_eq, dst108]
  rfl

/-! ## The bias and the layer -/

/-- The bias broadcast to every row is read at the column's entry. -/
theorem bias111 (i : S50000x64.Idx) : val_main_v111 (F := Ideal) x15 i = x15 (ix1 (i 1)) := by
  rw [val_main_v111_apply, val_main_v110_apply]
  have e : idx_main_v110 (idx_main_v111 i) = ix1 (i 1) := funext fun a => by match a with | ⟨0, _⟩ => rfl
  rw [e]
  rfl

/-- The program's result: the neighbourhood sum of (previous layer's output times W3), plus the bias b3. -/
theorem layer3 : val_main_v112 (F := Ideal) x0 x1 x2 x3 x4 x5 x6 x7 x8 x9 x10 x11 x12 x13 x14 x15
    = fun i => Cert.Gcn.agg64 (val_main_v37 (F := Ideal) x1) (val_main_v42 (F := Ideal) x1) (val_main_v29 (F := Ideal) x1)
        (Cert.Gcn.mm (C := 64) (val_main_v95 (F := Ideal) x0 x1 x2 x3 x4 x5 x6 x7 x8 x9 x10 x11 x12 x13) x14) i
      + x15 (ix1 (i 1)) := by
  funext i
  rw [val_main_v112_apply, bias111, agg3, prod3, Ideal.addf_def]

end Cert.ReferenceIdeal.RefValue3

end
-- ==== Proof.AggIndex.lean ====
/-
  The neighbourhood sum read at an entry.

  The edge list gives each edge `e` a source and a target node number (signed 32-bit words).  The gather of rows reads,
  for edge `e`, the row of the source node with its number CLAMPED into `[0, 50000)` (`rowOf`); the scatter-add lands
  edge `e`'s row on the target node's row when the target number, read signed and NOT clamped, lies in `[0, 50000)`,
  and drops it otherwise (`lands`).  Neither depends on the width of the rows: the feature coordinate is carried through
  unchanged.  So, at every width, `(agg f) (r, c) = ∑ e ∈ lands dst r, n e · f (rowOf src e, c)`: a weighted sum over one
  and the same finite set of edges — the form in which a matrix product on the feature axis can be moved across it.
-/
import proofs.«115181_j44435731644444_1_alg».proof.Proof.Spec
import Idealize.ShloMosaic.PureOps.Dims
import Idealize.ShloMosaic.Lib.ValueIdx

noncomputable section

namespace Cert.Gcn

open Idealize.ShloMosaic Idealize.ShloMosaic.ValueIdx
open scoped BigOperators

/-- The node whose row edge `e` reads: its signed source number clamped into range. -/
def rowOf (src : EdgeIdx) (e : Fin 850000) : Fin 50000 :=
  ⟨min (src (ix2 e (0 : Fin 1))).toInt.toNat 49999, by omega⟩

/-- The edges whose row lands on node `r`: those whose signed target number is `r`. -/
def lands (dst : EdgeIdx) (r : Fin 50000) : Finset (Fin 850000) :=
  Finset.univ.filter fun e => (dst (ix2 e (0 : Fin 1))).toInt = (r.val : Int)

/-! ### Width 128 -/

theorem gd128_siIdx (j : (⟨2, ![850000, 128]⟩ : Shape).Idx) :
    gd128.siIdx j ⟨0, by decide⟩ = ix2 (j 0) (0 : Fin 1) := by
  funext b
  match b with
  | ⟨0, h⟩ =>
    unfold GatherDims.siIdx
    rw [dif_neg (show ¬ ((⟨0, h⟩ : Fin 2).val = gd128.indexVectorDim) from Nat.zero_ne_one)]
    exact Fin.ext rfl
  | ⟨1, h⟩ =>
    unfold GatherDims.siIdx
    rw [dif_pos (show (⟨1, h⟩ : Fin 2).val = gd128.indexVectorDim from rfl)]
    exact Fin.ext rfl

theorem gd128_start0 (src : EdgeIdx) (j : (⟨2, ![850000, 128]⟩ : Shape).Idx) :
    gd128.start j src 0 = min (src (ix2 (j 0) (0 : Fin 1))).toInt.toNat 49999 := by
  unfold GatherDims.start
  rw [dif_pos (show (0 : Fin 2) ∈ gd128.startIndexMap by decide)]
  exact congrArg (fun i => min (src i).toInt.toNat 49999) (gd128_siIdx j)

theorem gd128_start1 (src : EdgeIdx) (j : (⟨2, ![850000, 128]⟩ : Shape).Idx) : gd128.start j src 1 = 0 := by
  unfold GatherDims.start
  exact dif_neg (show ¬ (1 : Fin 2) ∈ gd128.startIndexMap by decide)

theorem gd128_off1 (j : (⟨2, ![850000, 128]⟩ : Shape).Idx) : gd128.offCoord j 1 = (j 1).val := by
  unfold GatherDims.offCoord
  rw [dif_pos (show (1 : Fin 2) ∈ gd128.sKept by decide)]
  rfl

/-- The gather reads, for edge `e` and feature `c`, feature `c` of the node `rowOf src e`. -/
theorem gd128_operandIdx (src : EdgeIdx) (e : Fin 850000) (c : Fin 128) :
    gd128.operandIdx (ix2 e c) src = ix2 (rowOf src e) c := by
  funext a
  match a with
  | ⟨0, h⟩ =>
    refine Fin.ext ?_
    show gd128.start (ix2 e c) src 0 + gd128.batchCoord (ix2 e c) 0 + gd128.offCoord (ix2 e c) 0 = _
    rw [gd128_start0, gd128.batchCoord_eq_zero _ 0 (by decide), gd128.offCoord_eq_zero _ 0 (by decide)]
    rfl
  | ⟨1, h⟩ =>
    refine Fin.ext ?_
    show gd128.start (ix2 e c) src 1 + gd128.batchCoord (ix2 e c) 1 + gd128.offCoord (ix2 e c) 1 = _
    rw [gd128_start1, gd128.batchCoord_eq_zero _ 1 (by decide), gd128_off1]
    show 0 + 0 + c.val = c.val
    omega

theorem sd128_siIdx (j : (⟨2, ![850000, 128]⟩ : Shape).Idx) :
    sd128.siIdx j ⟨0, by decide⟩ = ix2 (j 0) (0 : Fin 1) := by
  funext b
  match b with
  | ⟨0, h⟩ =>
    unfold ScatterDims.siIdx
    rw [dif_neg (show ¬ ((⟨0, h⟩ : Fin 2).val = sd128.indexVectorDim) from Nat.zero_ne_one)]
    exact Fin.ext rfl
  | ⟨1, h⟩ =>
    unfold ScatterDims.siIdx
    rw [dif_pos (show (⟨1, h⟩ : Fin 2).val = sd128.indexVectorDim from rfl)]
    exact Fin.ext rfl

theorem sd128_start0 (dst : EdgeIdx) (j : (⟨2, ![850000, 128]⟩ : Shape).Idx) :
    sd128.start j dst 0 = (dst (ix2 (j 0) (0 : Fin 1))).toInt := by
  unfold ScatterDims.start
  rw [dif_pos (show (0 : Fin 2) ∈ sd128.scatterDimsToOperandDims by decide)]
  exact congrArg (fun i => (dst i).toInt) (sd128_siIdx j)

theorem sd128_start1 (dst : EdgeIdx) (j : (⟨2, ![850000, 128]⟩ : Shape).Idx) : sd128.start j dst 1 = 0 := by
  unfold ScatterDims.start
  exact dif_neg (show ¬ (1 : Fin 2) ∈ sd128.scatterDimsToOperandDims by decide)

theorem sd128_window0 (j : (⟨2, ![850000, 128]⟩ : Shape).Idx) : sd128.window j 0 = 0 := by
  unfold ScatterDims.window
  exact dif_neg (show ¬ (0 : Fin 2) ∈ sd128.sKept by decide)

theorem sd128_window1 (j : (⟨2, ![850000, 128]⟩ : Shape).Idx) : sd128.window j 1 = (j 1).val := by
  unfold ScatterDims.window
  rw [dif_pos (show (1 : Fin 2) ∈ sd128.sKept by decide)]
  rfl

/-- Update `(e, c')` lands on `(r, c)` exactly when edge `e`'s signed node number is `r` and the feature is kept;
    a node number outside `[0, 50000)` lands nowhere. -/
theorem sd128_lands (dst : EdgeIdx) (e : Fin 850000) (c' : Fin 128) (r : Fin 50000) (c : Fin 128) :
    sd128.resultIdx? (ix2 e c') dst = some (ix2 r c) ↔ ((dst (ix2 e (0 : Fin 1))).toInt = (r.val : Int) ∧ c' = c) := by
  have s0 : sd128.start (ix2 e c') dst 0 = (dst (ix2 e (0 : Fin 1))).toInt := sd128_start0 dst (ix2 e c')
  have s1 : sd128.start (ix2 e c') dst 1 = 0 := sd128_start1 dst (ix2 e c')
  have w0 : sd128.window (ix2 e c') 0 = 0 := sd128_window0 (ix2 e c')
  have w1 : sd128.window (ix2 e c') 1 = c'.val := sd128_window1 (ix2 e c')
  have hc' : c'.val < 128 := c'.isLt
  have hr : r.val < 50000 := r.isLt
  unfold ScatterDims.resultIdx?
  split
  · rename_i h
    rw [Option.some.injEq]
    constructor
    · intro hf
      have h0 := congrArg (fun f => (f 0).val) hf
      have h1 := congrArg (fun f => (f 1).val) hf
      simp only [s0, s1, w0, w1] at h0 h1
      have hz := (h 0).1
      rw [s0, w0] at hz
      refine ⟨?_, Fin.ext ?_⟩
      · have : ((dst (ix2 e (0 : Fin 1))).toInt + ((0 : Nat) : Int)).toNat = r.val := h0
        omega
      · have : (((0 : Int)) + ((c'.val : Nat) : Int)).toNat = c.val := h1
        omega
    · rintro ⟨hz, rfl⟩
      funext a
      match a with
      | ⟨0, _⟩ =>
        refine Fin.ext ?_
        show (sd128.start (ix2 e c') dst 0 + (sd128.window (ix2 e c') 0 : Int)).toNat = r.val
        rw [s0, w0, hz]; omega
      | ⟨1, _⟩ =>
        refine Fin.ext ?_
        show (sd128.start (ix2 e c') dst 1 + (sd128.window (ix2 e c') 1 : Int)).toNat = c'.val
        rw [s1, w1]
        omega
  · rename_i h
    constructor
    · intro hf; exact absurd hf (by simp)
    · rintro ⟨hz, rfl⟩
      exfalso; apply h
      intro a
      match a with
      | ⟨0, _⟩ =>
        show 0 ≤ sd128.start (ix2 e c') dst 0 + (sd128.window (ix2 e c') 0 : Int) ∧ sd128.start (ix2 e c') dst 0 + (sd128.window (ix2 e c') 0 : Int) < (50000 : Nat)
        rw [s0, w0, hz]; omega
      | ⟨1, _⟩ =>
        show 0 ≤ sd128.start (ix2 e c') dst 1 + (sd128.window (ix2 e c') 1 : Int) ∧ sd128.start (ix2 e c') dst 1 + (sd128.window (ix2 e c') 1 : Int) < (128 : Nat)
        rw [s1, w1]
        omega

/-- The neighbourhood sum at node `r`, feature `c`: over the edges that land on `r`, the edge weight times the source
    node's feature. -/
theorem agg128_apply (src dst : EdgeIdx) (n : EdgeW) (f : Feat 128) (r : Fin 50000) (c : Fin 128) :
    agg128 src dst n f (ix2 r c) = ∑ e ∈ lands dst r, n (ix1 e) * f (ix2 (rowOf src e) c) := by
  unfold agg128 Ideal.hostScatterAdd
  rw [zero_add, Finset.sum_filter, sum_idx2]
  unfold lands
  rw [Finset.sum_filter]
  refine Finset.sum_congr rfl fun e _ => ?_
  have hterm : ∀ c' : Fin 128,
      (if sd128.resultIdx? (ix2 e c') dst = some (ix2 r c) then
          n (ix1 ((ix2 e c' : (⟨2, ![850000, 128]⟩ : Shape).Idx) 0)) * Host.gather gd128 f src (ix2 e c') else 0)
        = if c' = c then (if (dst (ix2 e (0 : Fin 1))).toInt = (r.val : Int) then n (ix1 e) * f (ix2 (rowOf src e) c) else 0) else 0 := by
    intro c'
    by_cases hc : c' = c
    · subst hc
      rw [if_pos rfl]
      by_cases hz : (dst (ix2 e (0 : Fin 1))).toInt = (r.val : Int)
      · rw [if_pos ((sd128_lands dst e c' r c').2 ⟨hz, rfl⟩), if_pos hz]
        show n (ix1 e) * f (gd128.operandIdx (ix2 e c') src) = _
        rw [gd128_operandIdx]
      · rw [if_neg (fun h => hz ((sd128_lands dst e c' r c').1 h).1), if_neg hz]
    · rw [if_neg hc, if_neg (fun h => hc ((sd128_lands dst e c' r c).1 h).2)]
  rw [Finset.sum_congr rfl fun c' _ => hterm c', Finset.sum_ite_eq' Finset.univ c, if_pos (Finset.mem_univ c)]

/-! ### Width 64 -/

theorem gd64_siIdx (j : (⟨2, ![850000, 64]⟩ : Shape).Idx) :
    gd64.siIdx j ⟨0, by decide⟩ = ix2 (j 0) (0 : Fin 1) := by
  funext b
  match b with
  | ⟨0, h⟩ =>
    unfold GatherDims.siIdx
    rw [dif_neg (show ¬ ((⟨0, h⟩ : Fin 2).val = gd64.indexVectorDim) from Nat.zero_ne_one)]
    exact Fin.ext rfl
  | ⟨1, h⟩ =>
    unfold GatherDims.siIdx
    rw [dif_pos (show (⟨1, h⟩ : Fin 2).val = gd64.indexVectorDim from rfl)]
    exact Fin.ext rfl

theorem gd64_start0 (src : EdgeIdx) (j : (⟨2, ![850000, 64]⟩ : Shape).Idx) :
    gd64.start j src 0 = min (src (ix2 (j 0) (0 : Fin 1))).toInt.toNat 49999 := by
  unfold GatherDims.start
  rw [dif_pos (show (0 : Fin 2) ∈ gd64.startIndexMap by decide)]
  exact congrArg (fun i => min (src i).toInt.toNat 49999) (gd64_siIdx j)

theorem gd64_start1 (src : EdgeIdx) (j : (⟨2, ![850000, 64]⟩ : Shape).Idx) : gd64.start j src 1 = 0 := by
  unfold GatherDims.start
  exact dif_neg (show ¬ (1 : Fin 2) ∈ gd64.startIndexMap by decide)

theorem gd64_off1 (j : (⟨2, ![850000, 64]⟩ : Shape).Idx) : gd64.offCoord j 1 = (j 1).val := by
  unfold GatherDims.offCoord
  rw [dif_pos (show (1 : Fin 2) ∈ gd64.sKept by decide)]
  rfl

/-- The gather reads, for edge `e` and feature `c`, feature `c` of the node `rowOf src e`. -/
theorem gd64_operandIdx (src : EdgeIdx) (e : Fin 850000) (c : Fin 64) :
    gd64.operandIdx (ix2 e c) src = ix2 (rowOf src e) c := by
  funext a
  match a with
  | ⟨0, h⟩ =>
    refine Fin.ext ?_
    show gd64.start (ix2 e c) src 0 + gd64.batchCoord (ix2 e c) 0 + gd64.offCoord (ix2 e c) 0 = _
    rw [gd64_start0, gd64.batchCoord_eq_zero _ 0 (by decide), gd64.offCoord_eq_zero _ 0 (by decide)]
    rfl
  | ⟨1, h⟩ =>
    refine Fin.ext ?_
    show gd64.start (ix2 e c) src 1 + gd64.batchCoord (ix2 e c) 1 + gd64.offCoord (ix2 e c) 1 = _
    rw [gd64_start1, gd64.batchCoord_eq_zero _ 1 (by decide), gd64_off1]
    show 0 + 0 + c.val = c.val
    omega

theorem sd64_siIdx (j : (⟨2, ![850000, 64]⟩ : Shape).Idx) :
    sd64.siIdx j ⟨0, by decide⟩ = ix2 (j 0) (0 : Fin 1) := by
  funext b
  match b with
  | ⟨0, h⟩ =>
    unfold ScatterDims.siIdx
    rw [dif_neg (show ¬ ((⟨0, h⟩ : Fin 2).val = sd64.indexVectorDim) from Nat.zero_ne_one)]
    exact Fin.ext rfl
  | ⟨1, h⟩ =>
    unfold ScatterDims.siIdx
    rw [dif_pos (show (⟨1, h⟩ : Fin 2).val = sd64.indexVectorDim from rfl)]
    exact Fin.ext rfl

theorem sd64_start0 (dst : EdgeIdx) (j : (⟨2, ![850000, 64]⟩ : Shape).Idx) :
    sd64.start j dst 0 = (dst (ix2 (j 0) (0 : Fin 1))).toInt := by
  unfold ScatterDims.start
  rw [dif_pos (show (0 : Fin 2) ∈ sd64.scatterDimsToOperandDims by decide)]
  exact congrArg (fun i => (dst i).toInt) (sd64_siIdx j)

theorem sd64_start1 (dst : EdgeIdx) (j : (⟨2, ![850000, 64]⟩ : Shape).Idx) : sd64.start j dst 1 = 0 := by
  unfold ScatterDims.start
  exact dif_neg (show ¬ (1 : Fin 2) ∈ sd64.scatterDimsToOperandDims by decide)

theorem sd64_window0 (j : (⟨2, ![850000, 64]⟩ : Shape).Idx) : sd64.window j 0 = 0 := by
  unfold ScatterDims.window
  exact dif_neg (show ¬ (0 : Fin 2) ∈ sd64.sKept by decide)

theorem sd64_window1 (j : (⟨2, ![850000, 64]⟩ : Shape).Idx) : sd64.window j 1 = (j 1).val := by
  unfold ScatterDims.window
  rw [dif_pos (show (1 : Fin 2) ∈ sd64.sKept by decide)]
  rfl

/-- Update `(e, c')` lands on `(r, c)` exactly when edge `e`'s signed node number is `r` and the feature is kept;
    a node number outside `[0, 50000)` lands nowhere. -/
theorem sd64_lands (dst : EdgeIdx) (e : Fin 850000) (c' : Fin 64) (r : Fin 50000) (c : Fin 64) :
    sd64.resultIdx? (ix2 e c') dst = some (ix2 r c) ↔ ((dst (ix2 e (0 : Fin 1))).toInt = (r.val : Int) ∧ c' = c) := by
  have s0 : sd64.start (ix2 e c') dst 0 = (dst (ix2 e (0 : Fin 1))).toInt := sd64_start0 dst (ix2 e c')
  have s1 : sd64.start (ix2 e c') dst 1 = 0 := sd64_start1 dst (ix2 e c')
  have w0 : sd64.window (ix2 e c') 0 = 0 := sd64_window0 (ix2 e c')
  have w1 : sd64.window (ix2 e c') 1 = c'.val := sd64_window1 (ix2 e c')
  have hc' : c'.val < 64 := c'.isLt
  have hr : r.val < 50000 := r.isLt
  unfold ScatterDims.resultIdx?
  split
  · rename_i h
    rw [Option.some.injEq]
    constructor
    · intro hf
      have h0 := congrArg (fun f => (f 0).val) hf
      have h1 := congrArg (fun f => (f 1).val) hf
      simp only [s0, s1, w0, w1] at h0 h1
      have hz := (h 0).1
      rw [s0, w0] at hz
      refine ⟨?_, Fin.ext ?_⟩
      · have : ((dst (ix2 e (0 : Fin 1))).toInt + ((0 : Nat) : Int)).toNat = r.val := h0
        omega
      · have : (((0 : Int)) + ((c'.val : Nat) : Int)).toNat = c.val := h1
        omega
    · rintro ⟨hz, rfl⟩
      funext a
      match a with
      | ⟨0, _⟩ =>
        refine Fin.ext ?_
        show (sd64.start (ix2 e c') dst 0 + (sd64.window (ix2 e c') 0 : Int)).toNat = r.val
        rw [s0, w0, hz]; omega
      | ⟨1, _⟩ =>
        refine Fin.ext ?_
        show (sd64.start (ix2 e c') dst 1 + (sd64.window (ix2 e c') 1 : Int)).toNat = c'.val
        rw [s1, w1]
        omega
  · rename_i h
    constructor
    · intro hf; exact absurd hf (by simp)
    · rintro ⟨hz, rfl⟩
      exfalso; apply h
      intro a
      match a with
      | ⟨0, _⟩ =>
        show 0 ≤ sd64.start (ix2 e c') dst 0 + (sd64.window (ix2 e c') 0 : Int) ∧ sd64.start (ix2 e c') dst 0 + (sd64.window (ix2 e c') 0 : Int) < (50000 : Nat)
        rw [s0, w0, hz]; omega
      | ⟨1, _⟩ =>
        show 0 ≤ sd64.start (ix2 e c') dst 1 + (sd64.window (ix2 e c') 1 : Int) ∧ sd64.start (ix2 e c') dst 1 + (sd64.window (ix2 e c') 1 : Int) < (64 : Nat)
        rw [s1, w1]
        omega

/-- The neighbourhood sum at node `r`, feature `c`: over the edges that land on `r`, the edge weight times the source
    node's feature. -/
theorem agg64_apply (src dst : EdgeIdx) (n : EdgeW) (f : Feat 64) (r : Fin 50000) (c : Fin 64) :
    agg64 src dst n f (ix2 r c) = ∑ e ∈ lands dst r, n (ix1 e) * f (ix2 (rowOf src e) c) := by
  unfold agg64 Ideal.hostScatterAdd
  rw [zero_add, Finset.sum_filter, sum_idx2]
  unfold lands
  rw [Finset.sum_filter]
  refine Finset.sum_congr rfl fun e _ => ?_
  have hterm : ∀ c' : Fin 64,
      (if sd64.resultIdx? (ix2 e c') dst = some (ix2 r c) then
          n (ix1 ((ix2 e c' : (⟨2, ![850000, 64]⟩ : Shape).Idx) 0)) * Host.gather gd64 f src (ix2 e c') else 0)
        = if c' = c then (if (dst (ix2 e (0 : Fin 1))).toInt = (r.val : Int) then n (ix1 e) * f (ix2 (rowOf src e) c) else 0) else 0 := by
    intro c'
    by_cases hc : c' = c
    · subst hc
      rw [if_pos rfl]
      by_cases hz : (dst (ix2 e (0 : Fin 1))).toInt = (r.val : Int)
      · rw [if_pos ((sd64_lands dst e c' r c').2 ⟨hz, rfl⟩), if_pos hz]
        show n (ix1 e) * f (gd64.operandIdx (ix2 e c') src) = _
        rw [gd64_operandIdx]
      · rw [if_neg (fun h => hz ((sd64_lands dst e c' r c').1 h).1), if_neg hz]
    · rw [if_neg hc, if_neg (fun h => hc ((sd64_lands dst e c' r c).1 h).2)]
  rw [Finset.sum_congr rfl fun c' _ => hterm c', Finset.sum_ite_eq' Finset.univ c, if_pos (Finset.mem_univ c)]

end Cert.Gcn

end
-- ==== Proof.LibExtSums.lean ====
/-
  Finite sums on the extended reals, where the infinities break the ring laws.

  On `[-∞, +∞]` addition and multiplication are commutative and associative, but multiplication does not distribute
  over addition in general: `(⊤ + ⊥) · w` and `⊤ · w + ⊥ · w` differ for `w < 0`, since `⊤ + ⊥ = ⊥`.  Two cases
  where it does distribute are all that a weighted sum of rows followed by a matrix product needs:
  • scaling by a FINITE NONNEGATIVE number distributes over any finite sum (the sign of every infinity is kept);
  • multiplying by a REAL number of any sign distributes over a finite sum none of whose terms is `⊥` (then the only
    infinity is `⊤`, and all its multiples by one real have one sign).
  Together they give the exchange law: for weights `n e ∈ [0, ∞)`, entries `a e k ≠ ⊥` and real `W k`,
  `∑ e, n e · (∑ k, a e k · W k) = ∑ k, (∑ e, n e · a e k) · W k`.
-/
import Mathlib.Data.EReal.Inv
import Mathlib.Algebra.BigOperators.Group.Finset.Sigma

namespace Cert.ExtSums

open scoped BigOperators

/-- A finite sum of extended reals none of which is `⊥` is not `⊥`. -/
theorem sum_ne_bot {ι : Type*} (s : Finset ι) (f : ι → EReal) (h : ∀ i ∈ s, f i ≠ ⊥) : ∑ i ∈ s, f i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- The product of a finite nonnegative number and an extended real other than `⊥` is not `⊥`. -/
theorem mul_ne_bot_of_nonneg {n x : EReal} (h0 : 0 ≤ n) (ht : n ≠ ⊤) (hx : x ≠ ⊥) : n * x ≠ ⊥ := by
  induction x using EReal.rec with
  | bot => exact absurd rfl hx
  | coe r =>
    lift n to ℝ using ⟨ht, fun h => by simp [h] at h0⟩
    rw [← EReal.coe_mul]; exact EReal.coe_ne_bot _
  | top =>
    rcases eq_or_lt_of_le h0 with h | h
    · rw [← h, zero_mul]; exact EReal.zero_ne_bot
    · rw [EReal.mul_top_of_pos h]; exact bot_lt_top.ne'

/-- Scaling by a finite nonnegative number distributes over a finite sum. -/
theorem mul_sum_of_nonneg {ι : Type*} {n : EReal} (h0 : 0 ≤ n) (ht : n ≠ ⊤) (s : Finset ι) (f : ι → EReal) :
    n * ∑ i ∈ s, f i = ∑ i ∈ s, n * f i := by
  classical
  induction s using Finset.induction_on with
  | empty => simp
  | insert i s hi ih =>
    rw [Finset.sum_insert hi, Finset.sum_insert hi, EReal.left_distrib_of_nonneg_of_ne_top h0 ht, ih]

/-- `(x + y) · w = x · w + y · w` for a real `w` of any sign, when neither summand is `⊥`. -/
theorem add_mul_coe_of_ne_bot {x y : EReal} (w : ℝ) (hx : x ≠ ⊥) (hy : y ≠ ⊥) :
    (x + y) * (w : EReal) = x * w + y * w := by
  rcases lt_trichotomy w 0 with hw | hw | hw
  · induction x using EReal.rec with
    | bot => exact absurd rfl hx
    | coe a =>
      induction y using EReal.rec with
      | bot => exact absurd rfl hy
      | coe b => norm_cast; ring
      | top => rw [EReal.coe_add_top, EReal.top_mul_coe_of_neg hw, ← EReal.coe_mul, EReal.add_bot]
    | top =>
      induction y using EReal.rec with
      | bot => exact absurd rfl hy
      | coe b => rw [EReal.top_add_coe, EReal.top_mul_coe_of_neg hw, ← EReal.coe_mul, EReal.bot_add]
      | top => rw [EReal.top_add_top, EReal.top_mul_coe_of_neg hw, EReal.bot_add]
  · subst hw; simp
  · induction x using EReal.rec with
    | bot => exact absurd rfl hx
    | coe a =>
      induction y using EReal.rec with
      | bot => exact absurd rfl hy
      | coe b => norm_cast; ring
      | top => rw [EReal.coe_add_top, EReal.top_mul_coe_of_pos hw, ← EReal.coe_mul, EReal.coe_add_top]
    | top =>
      induction y using EReal.rec with
      | bot => exact absurd rfl hy
      | coe b => rw [EReal.top_add_coe, EReal.top_mul_coe_of_pos hw, ← EReal.coe_mul, EReal.top_add_coe]
      | top => rw [EReal.top_add_top, EReal.top_mul_coe_of_pos hw, EReal.top_add_top]

/-- Multiplying by a real number distributes over a finite sum none of whose terms is `⊥`. -/
theorem sum_mul_coe_of_ne_bot {ι : Type*} (s : Finset ι) (f : ι → EReal) (w : ℝ) (h : ∀ i ∈ s, f i ≠ ⊥) :
    (∑ i ∈ s, f i) * (w : EReal) = ∑ i ∈ s, f i * w := by
  classical
  induction s using Finset.induction_on with
  | empty => simp
  | insert i s hi ih =>
    have hs : ∀ j ∈ s, f j ≠ ⊥ := fun j hj => h j (Finset.mem_insert_of_mem hj)
    rw [Finset.sum_insert hi, Finset.sum_insert hi,
      add_mul_coe_of_ne_bot w (h i (Finset.mem_insert_self i s)) (sum_ne_bot s f hs), ih hs]

/-- The exchange law: a weighted sum over `e` of products summed over `k` is the sum over `k` of the weighted
    sums' products, for weights in `[0, ∞)`, entries other than `⊥` and real factors. -/
theorem exchange {E K : Type*} [Fintype K] (sE : Finset E) (n : E → EReal) (a : E → K → EReal) (W : K → ℝ)
    (hn0 : ∀ e, 0 ≤ n e) (hnt : ∀ e, n e ≠ ⊤) (ha : ∀ e k, a e k ≠ ⊥) :
    ∑ e ∈ sE, n e * ∑ k, a e k * (W k : EReal) = ∑ k, (∑ e ∈ sE, n e * a e k) * (W k : EReal) := by
  calc ∑ e ∈ sE, n e * ∑ k, a e k * (W k : EReal)
      = ∑ e ∈ sE, ∑ k, n e * a e k * (W k : EReal) :=
        Finset.sum_congr rfl fun e _ => by
          rw [mul_sum_of_nonneg (hn0 e) (hnt e)]
          exact Finset.sum_congr rfl fun k _ => (mul_assoc _ _ _).symm
    _ = ∑ k, ∑ e ∈ sE, n e * a e k * (W k : EReal) := Finset.sum_comm
    _ = ∑ k, (∑ e ∈ sE, n e * a e k) * (W k : EReal) :=
        Finset.sum_congr rfl fun k _ =>
          (sum_mul_coe_of_ne_bot sE (fun e => n e * a e k) (W k)
            fun e _ => mul_ne_bot_of_nonneg (hn0 e) (hnt e) (ha e k)).symm

end Cert.ExtSums
-- ==== Proof.LayerOrder.lean ====
/-
  The two orders of a graph-convolution layer agree on the extended reals.

  One program forms `(agg f) · W`, the other `agg (f · W)`.  Over the reals these are equal by distributivity.  On the
  extended reals distributivity can fail, and intermediate features CAN be infinite here: the inverse deviation
  `rsqrt (v + eps)` is `⊤` at `v = -eps`, so a layer's output may hold `⊤`.  What saves the identity is that a layer's
  output is never `⊥`: it is `y · σ(y)` with `σ(⊥) = 0`, so `⊥ · 0 = 0`, `σ(⊤) = 1` gives `⊤`, and a real `y` gives a real.
  With every entry other than `⊥`, edge weights in `[0, ∞)` and real matrices, the exchange law of sums applies at every
  layer, whatever the parameters of the normalisation are.
-/
import proofs.«115181_j44435731644444_1_alg».proof.Proof.AggIndex
import proofs.«115181_j44435731644444_1_alg».proof.Proof.LibExtSums

noncomputable section

namespace Cert.Gcn

open Idealize.ShloMosaic Idealize.ShloMosaic.ValueIdx
open scoped BigOperators

/-- Moving the product with `W` across the neighbourhood sum, rows 128 wide after the product: for edge weights in
    `[0, ∞)`, features that are never `⊥` and a real matrix, `agg (f · W) = (agg f) · W` at every entry. -/
theorem agg_mm128 (src dst : EdgeIdx) (n : EdgeW) (f : Feat 128) (W : Wt 128)
    (hn : ∀ e, 0 ≤ n e ∧ n e ≠ ⊤) (hf : ∀ i, f i ≠ ⊥) (hW : ∀ i, W i ≠ ⊥ ∧ W i ≠ ⊤) (r : Fin 50000) (c : Fin 128) :
    agg128 src dst n (mm f W) (ix2 r c) = dotAt (agg128 src dst n f) W r c := by
  have hWr : ∀ k : Fin 128, (((W (ix2 k c)).toReal : ℝ) : EReal) = W (ix2 k c) :=
    fun k => EReal.coe_toReal (hW _).2 (hW _).1
  have hx := Cert.ExtSums.exchange (lands dst r) (fun e => n (ix1 e)) (fun e (k : Fin 128) => f (ix2 (rowOf src e) k))
    (fun k => (W (ix2 k c)).toReal) (fun e => (hn _).1) (fun e => (hn _).2) (fun e k => hf _)
  simp only [hWr] at hx
  rw [agg128_apply]
  show ∑ e ∈ lands dst r, n (ix1 e) * ∑ k : Fin 128, f (ix2 (rowOf src e) k) * W (ix2 k c)
    = ∑ k : Fin 128, agg128 src dst n f (ix2 r k) * W (ix2 k c)
  simp only [agg128_apply]
  exact hx

/-- Moving the product with `W` across the neighbourhood sum, rows 64 wide after the product: for edge weights in
    `[0, ∞)`, features that are never `⊥` and a real matrix, `agg (f · W) = (agg f) · W` at every entry. -/
theorem agg_mm64 (src dst : EdgeIdx) (n : EdgeW) (f : Feat 128) (W : Wt 64)
    (hn : ∀ e, 0 ≤ n e ∧ n e ≠ ⊤) (hf : ∀ i, f i ≠ ⊥) (hW : ∀ i, W i ≠ ⊥ ∧ W i ≠ ⊤) (r : Fin 50000) (c : Fin 64) :
    agg64 src dst n (mm f W) (ix2 r c) = dotAt (agg128 src dst n f) W r c := by
  have hWr : ∀ k : Fin 128, (((W (ix2 k c)).toReal : ℝ) : EReal) = W (ix2 k c) :=
    fun k => EReal.coe_toReal (hW _).2 (hW _).1
  have hx := Cert.ExtSums.exchange (lands dst r) (fun e => n (ix1 e)) (fun e (k : Fin 128) => f (ix2 (rowOf src e) k))
    (fun k => (W (ix2 k c)).toReal) (fun e => (hn _).1) (fun e => (hn _).2) (fun e k => hf _)
  simp only [hWr] at hx
  rw [agg64_apply]
  show ∑ e ∈ lands dst r, n (ix1 e) * ∑ k : Fin 128, f (ix2 (rowOf src e) k) * W (ix2 k c)
    = ∑ k : Fin 128, agg128 src dst n f (ix2 r k) * W (ix2 k c)
  simp only [agg128_apply]
  exact hx

/-- `y · σ(y)` is never `⊥`: at `⊥` the factor `σ` is `0`, at `⊤` it is `1`, and in between both are real. -/
theorem mul_logistic_ne_bot (y : EReal) : y * Ideal.logistic y ≠ ⊥ := by
  induction y using EReal.rec with
  | bot =>
    have : Ideal.logistic ⊥ = 0 := by
      unfold Ideal.logistic
      rw [EReal.neg_bot, show Ideal.exp ⊤ = ⊤ from rfl, EReal.add_top_of_ne_bot (show (1 : EReal) ≠ ⊥ by exact_mod_cast EReal.coe_ne_bot (1 : ℝ))]
      unfold Ideal.div
      rw [if_neg EReal.top_ne_zero, EReal.inv_top, mul_zero]
    rw [this, mul_zero]; exact EReal.zero_ne_bot
  | coe r =>
    have hpos : (0 : ℝ) < 1 + Real.exp (-r) := by positivity
    have : Ideal.logistic (r : EReal) = (((1 + Real.exp (-r))⁻¹ : ℝ) : EReal) := by
      have h1 : (1 : EReal) + ((Real.exp (-r) : ℝ) : EReal) = ((1 + Real.exp (-r) : ℝ) : EReal) := by norm_cast
      have hne : ((1 + Real.exp (-r) : ℝ) : EReal) ≠ 0 := by exact_mod_cast hpos.ne'
      show Ideal.div 1 (1 + Ideal.exp (-(r : EReal))) = _
      rw [← EReal.coe_neg]
      show Ideal.div 1 (1 + ((Real.exp (-r) : ℝ) : EReal)) = _
      rw [h1, Ideal.div, if_neg hne, one_mul, ← EReal.coe_inv]
    rw [this, ← EReal.coe_mul]; exact EReal.coe_ne_bot _
  | top =>
    have : Ideal.logistic ⊤ = 1 := by
      unfold Ideal.logistic
      rw [EReal.neg_top, show Ideal.exp ⊥ = 0 from rfl, add_zero]
      unfold Ideal.div
      rw [if_neg one_ne_zero, inv_one, mul_one]
    rw [this, mul_one]; exact bot_lt_top.ne'

/-- A layer's activation is never `⊥`, whatever its operands. -/
theorem act_ne_bot (h b mu v g be : EReal) : act h b mu v g be ≠ ⊥ := mul_logistic_ne_bot _

/-- A hidden layer computed in either order is the same array. -/
theorem kerLayer_eq_refLayer (src dst : EdgeIdx) (n : EdgeW) (f : Feat 128) (W : Wt 128) (b g be mu v : Vc 128)
    (hn : ∀ e, 0 ≤ n e ∧ n e ≠ ⊤) (hf : ∀ i, f i ≠ ⊥) (hW : ∀ i, W i ≠ ⊥ ∧ W i ≠ ⊤) :
    kerLayer src dst n f W b g be mu v = refLayer src dst n f W b g be mu v := by
  funext i
  have hi : agg128 src dst n (mm f W) i = dotAt (agg128 src dst n f) W (i 0) (i 1) :=
    (congrArg (agg128 src dst n (mm f W)) (eq_ix2 i)).trans (agg_mm128 src dst n f W hn hf hW (i 0) (i 1))
  show act (dotAt (agg128 src dst n f) W (i 0) (i 1)) (b (ix1 (i 1))) (mu (ix1 (i 1))) (v (ix1 (i 1))) (g (ix1 (i 1))) (be (ix1 (i 1)))
    = act (agg128 src dst n (mm f W) i) (b (ix1 (i 1))) (mu (ix1 (i 1))) (v (ix1 (i 1))) (g (ix1 (i 1))) (be (ix1 (i 1)))
  rw [hi]

/-- A hidden layer's output has no entry `⊥`. -/
theorem refLayer_ne_bot (src dst : EdgeIdx) (n : EdgeW) (f : Feat 128) (W : Wt 128) (b g be mu v : Vc 128) (i) :
    refLayer src dst n f W b g be mu v i ≠ ⊥ := act_ne_bot _ _ _ _ _ _

/-- The whole network computed in either order is the same array, for edge weights in `[0, ∞)`, input features that
    are never `⊥` and real weight matrices; nothing is asked of the biases or of the normalisation's parameters. -/
theorem kerOut_eq_refOut (src dst : EdgeIdx) (n : EdgeW) (x : Feat 128) (W1 : Wt 128) (b1 g1 be1 mu1 v1 : Vc 128)
    (W2 : Wt 128) (b2 g2 be2 mu2 v2 : Vc 128) (W3 : Wt 64) (b3 : Vc 64)
    (hn : ∀ e, 0 ≤ n e ∧ n e ≠ ⊤) (hx : ∀ i, x i ≠ ⊥)
    (hW1 : ∀ i, W1 i ≠ ⊥ ∧ W1 i ≠ ⊤) (hW2 : ∀ i, W2 i ≠ ⊥ ∧ W2 i ≠ ⊤) (hW3 : ∀ i, W3 i ≠ ⊥ ∧ W3 i ≠ ⊤) :
    kerOut src dst n x W1 b1 g1 be1 mu1 v1 W2 b2 g2 be2 mu2 v2 W3 b3
      = refOut src dst n x W1 b1 g1 be1 mu1 v1 W2 b2 g2 be2 mu2 v2 W3 b3 := by
  unfold kerOut refOut
  rw [kerLayer_eq_refLayer src dst n x W1 b1 g1 be1 mu1 v1 hn hx hW1,
    kerLayer_eq_refLayer src dst n _ W2 b2 g2 be2 mu2 v2 hn (refLayer_ne_bot src dst n x W1 b1 g1 be1 mu1 v1) hW2]
  funext i
  have hi : agg64 src dst n (mm (refLayer src dst n (refLayer src dst n x W1 b1 g1 be1 mu1 v1) W2 b2 g2 be2 mu2 v2) W3) i
      = dotAt (agg128 src dst n (refLayer src dst n (refLayer src dst n x W1 b1 g1 be1 mu1 v1) W2 b2 g2 be2 mu2 v2)) W3 (i 0) (i 1) :=
    (congrArg (agg64 src dst n (mm (refLayer src dst n (refLayer src dst n x W1 b1 g1 be1 mu1 v1) W2 b2 g2 be2 mu2 v2) W3)) (eq_ix2 i)).trans
      (agg_mm64 src dst n (refLayer src dst n (refLayer src dst n x W1 b1 g1 be1 mu1 v1) W2 b2 g2 be2 mu2 v2) W3
        hn (refLayer_ne_bot src dst n _ W2 b2 g2 be2 mu2 v2) hW3 (i 0) (i 1))
  exact congrArg (· + b3 (ix1 (i 1))) hi.symm

end Cert.Gcn

end
-- ==== Proof.Compose.lean ====
/-
  The reference program's result is the network with the product taken first in every layer, and that equals the
  network with the neighbourhood sum taken first.

  The three layers of the reference, each read back as `refLayer` (the last as the 64-wide sum plus the bias), compose
  to `refOut` of the source column, target column and edge weights that the program computes from the edge list.  The
  exchange law (`kerOut_eq_refOut`) then identifies it with `kerOut` of the same columns and weights, given that the
  weights lie in `[0, ∞)`, the input features are never `⊥` and the three weight matrices are real.
-/
import proofs.«115181_j44435731644444_1_alg».proof.Proof.RefValue
import proofs.«115181_j44435731644444_1_alg».proof.Proof.RefValue3
import proofs.«115181_j44435731644444_1_alg».proof.Proof.LayerOrder

noncomputable section

namespace Cert.ReferenceIdeal.Compose

open Cert.ReferenceIdeal Cert.ReferenceIdeal.ReadP Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 x4 x5 x6 x7 : (⟨S128, .f32⟩ : BufTy).Contents (Elt Ideal))
  (x8 : (⟨S128x128, .f32⟩ : BufTy).Contents (Elt Ideal)) (x9 x10 x11 x12 x13 : (⟨S128, .f32⟩ : BufTy).Contents (Elt Ideal))
  (x14 : (⟨S128x64, .f32⟩ : BufTy).Contents (Elt Ideal)) (x15 : (⟨S64, .f32⟩ : BufTy).Contents (Elt Ideal))

/-- The reference's result is `refOut` of its own columns and weights. -/
theorem ref_value :
    val_main_v112 (F := Ideal) x0 x1 x2 x3 x4 x5 x6 x7 x8 x9 x10 x11 x12 x13 x14 x15
      = Cert.Gcn.refOut (val_main_v37 (F := Ideal) x1) (val_main_v42 (F := Ideal) x1) (val_main_v29 (F := Ideal) x1)
          x0 x2 x3 x4 x5 x6 x7 x8 x9 x10 x11 x12 x13 x14 x15 := by
  rw [Cert.ReferenceIdeal.RefValue3.layer3, Cert.ReferenceIdeal.RefValue.layer2, Cert.ReferenceIdeal.RefValue.layer1]
  rfl

/-- With weights in `[0, ∞)`, features never `⊥` and real matrices, the network with the sum taken first is the
    reference's result. -/
theorem kerOut_eq_ref
    (hn : ∀ e, 0 ≤ val_main_v29 (F := Ideal) x1 e ∧ val_main_v29 (F := Ideal) x1 e ≠ ⊤)
    (hx : ∀ i, x0 i ≠ ⊥ ∧ x0 i ≠ ⊤) (hW1 : ∀ i, x2 i ≠ ⊥ ∧ x2 i ≠ ⊤) (hW2 : ∀ i, x8 i ≠ ⊥ ∧ x8 i ≠ ⊤)
    (hW3 : ∀ i, x14 i ≠ ⊥ ∧ x14 i ≠ ⊤) :
    Cert.Gcn.kerOut (val_main_v37 (F := Ideal) x1) (val_main_v42 (F := Ideal) x1) (val_main_v29 (F := Ideal) x1)
        x0 x2 x3 x4 x5 x6 x7 x8 x9 x10 x11 x12 x13 x14 x15
      = val_main_v112 (F := Ideal) x0 x1 x2 x3 x4 x5 x6 x7 x8 x9 x10 x11 x12 x13 x14 x15 := by
  rw [ref_value]
  exact Cert.Gcn.kerOut_eq_refOut _ _ _ x0 x2 x3 x4 x5 x6 x7 x8 x9 x10 x11 x12 x13 x14 x15 hn (fun i => (hx i).1) hW1 hW2 hW3

end Cert.ReferenceIdeal.Compose

end
-- ==== Proof.EdgeWeight.lean ====
/-
  The edge weight of the normalised adjacency lies in `[0, ∞)`.

  The degree of a node is a scatter-add of ones over the edge list, hence a natural number `k`.  The inverse root
  `dinv = if deg > 0 then rsqrt deg else 0` is then `(√k)⁻¹` for `k > 0` and `0` for `k = 0` (where `rsqrt` alone
  would be `⊤`: the guard matters): a real number `≥ 0` either way.  An edge's weight is the product of the inverse
  roots at two gathered positions; a gather only reads entries, so the weight is a product of two numbers in `[0, ∞)`.
  Nothing is asked of the edge list: whatever node numbers it holds, in range or not, the weights are finite and nonnegative.
-/
import proofs.«115181_j44435731644444_1_alg».proof.Proof.ReadPatched
import Idealize.ShloMosaic.Lib.IdealHost

noncomputable section

namespace Cert.ReferenceIdeal.EdgeWeight

open Cert.ReferenceIdeal Cert.ReferenceIdeal.ReadP Idealize.ShloMosaic Idealize.ShloMosaic.ValueIdx
open scoped BigOperators

/-- A finite sum of ones is the number of terms. -/
theorem sum_ones {ι : Type*} (S : Finset ι) : ∑ _j ∈ S, (1 : EReal) = ((S.card : ℝ) : EReal) := by
  classical
  induction S using Finset.induction_on with
  | empty => simp
  | insert a S ha ih =>
    rw [Finset.sum_insert ha, ih, Finset.card_insert_of_notMem ha]
    push_cast
    rw [add_comm]

/-- The array of ones the degree count scatters. -/
theorem ones_apply (j : S850000.Idx) : val_main_v7 (F := Ideal) j = (1 : EReal) := by
  rw [val_main_v7_apply, val_main_cst_apply, Ideal.ofBits_def, Ideal.ofBits_one_f32]

/-- The array of zeros the degree count starts from. -/
theorem zeros_apply (i : S50000.Idx) : val_main_v8 (F := Ideal) i = (0 : EReal) := by
  rw [val_main_v8_apply, val_main_cst_0_apply, Ideal.ofBits_def, Ideal.ofBits_zero_f32]

/-- The array of ones as a constant function. -/
theorem ones_eq : val_main_v7 (F := Ideal) = fun _ => (1 : EReal) := funext ones_apply

/-- The array of zeros as a constant function. -/
theorem zeros_eq : val_main_v8 (F := Ideal) = fun _ => (0 : EReal) := funext zeros_apply

/-- A scatter-add of ones onto zeros counts: every entry of the result is a natural number, whatever the shapes,
    the dimension numbers and the indices. -/
theorem scatter_ones_nat {s si su : Shape} (d : ScatterDims s si su) {w : Nat} (idx : IVec si w) (i : s.Idx) :
    ∃ k : ℕ, Ideal.hostScatterAdd d (fun _ => (0 : EReal)) idx (fun _ => (1 : EReal)) i = ((k : ℝ) : EReal) := by
  unfold Ideal.hostScatterAdd
  show ∃ k : ℕ, (0 : EReal) + ∑ _j ∈ _, (1 : EReal) = _
  rw [zero_add, sum_ones]
  exact ⟨_, rfl⟩

/-- On the extended reals the host's accumulating scatter is the exact sum; stated over variable operands, where
    there is nothing to evaluate. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

/-- The degree of a node is a natural number: the program counts it by a scatter-add of ones onto zeros. -/
theorem deg_nat (x1 : (⟨S2x800000, .i32⟩ : BufTy).Contents (Elt Ideal)) (i : S50000.Idx) :
    ∃ k : ℕ, val_main_v10 (F := Ideal) x1 i = ((k : ℝ) : EReal) := by
  unfold val_main_v10
  rw [scatterAdd_ideal, ones_eq, zeros_eq]
  exact scatter_ones_nat scatter_S50000_S850000x1_S850000_n_0_0_1 (val_main_v9 (F := Ideal) x1) i

/-- The inverse root of a natural number, guarded at zero, is a nonnegative real. -/
theorem guarded_rsqrt_range (k : ℕ) :
    0 ≤ Scalar.select (Ideal.cmp .ogt ((k : ℝ) : EReal) 0) (Ideal.rsqrt ((k : ℝ) : EReal)) (0 : EReal)
      ∧ Scalar.select (Ideal.cmp .ogt ((k : ℝ) : EReal) 0) (Ideal.rsqrt ((k : ℝ) : EReal)) (0 : EReal) ≠ ⊤ := by
  unfold Scalar.select Ideal.cmp
  by_cases hk : 0 < k
  · have hr : (0 : ℝ) < (k : ℝ) := by exact_mod_cast hk
    have hlt : (0 : EReal) < ((k : ℝ) : EReal) := by exact_mod_cast hr
    have hv : Ideal.rsqrt ((k : ℝ) : EReal) = (((Real.sqrt (k : ℝ))⁻¹ : ℝ) : EReal) := by
      show (if (k : ℝ) < 0 then (⊥ : EReal) else if (k : ℝ) = 0 then ⊤ else ((Real.sqrt (k : ℝ))⁻¹ : ℝ)) = _
      rw [if_neg (not_lt.2 hr.le), if_neg hr.ne']
    simp only [decide_eq_true hlt, BitVec.ofBool_true, if_true, hv]
    exact ⟨by exact_mod_cast inv_nonneg.2 (Real.sqrt_nonneg _), EReal.coe_ne_top _⟩
  · have hk0 : k = 0 := by omega
    subst hk0
    have hnl : ¬ (0 : EReal) < (((0 : ℕ) : ℝ) : EReal) := by simp
    simp only [decide_eq_false hnl, BitVec.ofBool_false]
    exact ⟨by rw [if_neg (by decide)], by rw [if_neg (by decide)]; exact EReal.zero_ne_top⟩

/-- Every entry of the guarded inverse root of the degrees is a nonnegative real. -/
theorem dinv_range (x1 : (⟨S2x800000, .i32⟩ : BufTy).Contents (Elt Ideal)) (i : S50000.Idx) :
    0 ≤ val_main_v14 (F := Ideal) x1 i ∧ val_main_v14 (F := Ideal) x1 i ≠ ⊤ := by
  obtain ⟨k, hk⟩ := deg_nat x1 i
  have h11 : val_main_v11 (F := Ideal) i = 0 := by
    rw [val_main_v11_apply, val_main_cst_1_apply, Ideal.ofBits_def, Ideal.ofBits_zero_f32]
  have hc : val_main_call0_v1 (F := Ideal) i = 0 := by
    rw [val_main_call0_v1_apply, val_main_call0_v0_apply, val_main_cst_2_apply, Ideal.ofBits_def, Ideal.ofBits_zero_f32]
  rw [val_main_v14_apply, val_main_v12_apply, val_main_v13_apply, hk, h11, hc, Ideal.hostUnary_rsqrt_def]
  exact guarded_rsqrt_range k

/-- The product of two numbers in `[0, ∞)` is in `[0, ∞)`. -/
theorem mul_range {a b : EReal} (ha : 0 ≤ a ∧ a ≠ ⊤) (hb : 0 ≤ b ∧ b ≠ ⊤) : 0 ≤ a * b ∧ a * b ≠ ⊤ := by
  obtain ⟨ha0, hat⟩ := ha
  obtain ⟨hb0, hbt⟩ := hb
  lift a to ℝ using ⟨hat, fun h => by simp [h] at ha0⟩
  lift b to ℝ using ⟨hbt, fun h => by simp [h] at hb0⟩
  refine ⟨mul_nonneg ha0 hb0, ?_⟩
  rw [← EReal.coe_mul]; exact EReal.coe_ne_top _

/-- A gather reads an entry of the gathered array: over a variable array there is nothing to evaluate. -/
theorem gather_entry {α : Type} {s si t : Shape} {w : Nat} (d : GatherDims s si t) (x : s.Idx → α) (idx : IVec si w)
    (j : t.Idx) : Host.gather d x idx j = x (d.operandIdx j idx) := rfl

/-- The inverse root gathered along the source column is an entry of the inverse roots. -/
theorem gathered_src (x1 : (⟨S2x800000, .i32⟩ : BufTy).Contents (Elt Ideal)) (e : S850000.Idx) :
    val_main_v21 (F := Ideal) x1 e
      = val_main_v14 (F := Ideal) x1 (gather_S50000_S850000x1_S850000_n_0_n_n_0_1_1.operandIdx e (val_main_v20 (F := Ideal) x1)) := by
  unfold val_main_v21
  exact gather_entry gather_S50000_S850000x1_S850000_n_0_n_n_0_1_1 (val_main_v14 (F := Ideal) x1) (val_main_v20 (F := Ideal) x1) e

/-- The inverse root gathered along the target column is an entry of the inverse roots. -/
theorem gathered_dst (x1 : (⟨S2x800000, .i32⟩ : BufTy).Contents (Elt Ideal)) (e : S850000.Idx) :
    val_main_v28 (F := Ideal) x1 e
      = val_main_v14 (F := Ideal) x1 (gather_S50000_S850000x1_S850000_n_0_n_n_0_1_1.operandIdx e (val_main_v27 (F := Ideal) x1)) := by
  unfold val_main_v28
  exact gather_entry gather_S50000_S850000x1_S850000_n_0_n_n_0_1_1 (val_main_v14 (F := Ideal) x1) (val_main_v27 (F := Ideal) x1) e

/-- Every edge weight is a nonnegative real. -/
theorem edge_weight_range (x1 : (⟨S2x800000, .i32⟩ : BufTy).Contents (Elt Ideal)) (e : S850000.Idx) :
    0 ≤ val_main_v29 (F := Ideal) x1 e ∧ val_main_v29 (F := Ideal) x1 e ≠ ⊤ := by
  rw [val_main_v29_apply, Ideal.mulf_def, gathered_src, gathered_dst]
  exact mul_range (dinv_range x1 _) (dinv_range x1 _)

end Cert.ReferenceIdeal.EdgeWeight

end
-- ==== Proof.FiniteInputs.lean ====
/-
  Finiteness read out of the printed precondition.

  The precondition computes, for each float argument x, the boolean "every entry of |x| is below +∞" — an absolute
  value, a comparison with the broadcast constant +∞, and a reduction by "and" over all axes from the constant
  true — and joins the fifteen booleans by "and".  On the extended reals |x| = max x (-x), and max x (-x) < ⊤ holds
  exactly when x is a real number: for x = ⊤ the maximum is ⊤, for x = ⊥ it is -⊥ = ⊤.  So from "the precondition
  is true" follows, for each argument, that no entry is ⊥ or ⊤.  Stated here for the four matrices.
-/
import Idealize.ShloMosaic.Lib.ReduceAll
import Idealize.ShloMosaic.Lib.ValueIdx
import Idealize.ShloMosaic.PureOps.Ideal.Laws
import proofs.«115181_j44435731644444_1_alg».proof.Pre_finite_inputs

namespace Cert.Proof.FiniteInputs

open Idealize.ShloMosaic Idealize.ShloMosaic.ValueIdx
open Cert.Pre_finite_inputs

/-- The pattern of +∞ denotes the top of the extended reals. -/
theorem inf_eq_top : Ideal.ofBits .f32 0x7F800000#32 = (⊤ : EReal) := by
  simp [Ideal.ofBits, Ideal.ieee]

/-- One entry: if max x (-x) < +∞ holds on the extended reals then x is neither infinity. -/
theorem finite_of_abs_lt_inf (x : EReal)
    (h : Ideal.cmp .olt (max x (-x)) (Ideal.ofBits .f32 0x7F800000#32) = 1#1) : x ≠ ⊥ ∧ x ≠ ⊤ := by
  rw [inf_eq_top] at h
  induction x using EReal.rec with
  | bot => simp [Ideal.cmp] at h
  | top => simp [Ideal.cmp] at h
  | coe r => exact ⟨EReal.coe_ne_bot r, EReal.coe_ne_top r⟩

/-- The result shape of a reduction over all axes has one index. -/
instance : Subsingleton S_.Idx := ⟨fun a b => funext fun d => d.elim0⟩

/-- One argument: if the reduction by "and", over all axes, of the comparison |x| < +∞ is true, every entry of x
    is neither infinity. -/
theorem finite_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (h : Host.reduce IntOp.andi
          (cmpf .olt (Host.absf x) (broadcastInDim s ![] hb (constant (F := Ideal) S_ .f32 0x7F800000#32)))
          init hr hu j = 1#1) :
    ∀ i, x i ≠ ⊥ ∧ x i ≠ ⊤ :=
  fun i => finite_of_abs_lt_inf (x i) (Host.reduce_andi_all _ init hr hu j h i)

section Walk
variable [Cert.Pre_finite_inputs.Facts]

/-- The last stretch of the conjunction: it is true only if both booleans handed to it are. -/
theorem part4_true (x15 : FVec Ideal S64 .f32) (v63 v67 : IVec S_ 1) (j : S_.Idx)
    (h : fn_part4 (F := Ideal) x15 v63 v67 j = 1#1) : v63 j = 1#1 ∧ v67 j = 1#1 := by
  dsimp only [fn_part4] at h
  exact IntOp.andi_eq_one.1 (IntOp.andi_eq_one.1 h).1

/-- The stretch before it: true only if the conjunction so far is true and argument 14 has no infinite entry. -/
theorem part3_true (x12 x13 : FVec Ideal S128 .f32) (x14 : FVec Ideal S128x64 .f32) (x15 : FVec Ideal S64 .f32)
    (v48 : IVec S_ 1) (v49 v50 : FVec Ideal S128 .f32) (j : S_.Idx)
    (h : fn_part3 (F := Ideal) x12 x13 x14 x15 v48 v49 v50 j = 1#1) :
    v48 j = 1#1 ∧ ∀ i, x14 i ≠ ⊥ ∧ x14 i ≠ ⊤ := by
  dsimp only [fn_part3] at h
  obtain ⟨h63, h67⟩ := part4_true _ _ _ j h
  exact ⟨(IntOp.andi_eq_one.1 (IntOp.andi_eq_one.1 (IntOp.andi_eq_one.1 h63).1).1).1,
    finite_of_all x14 _ _ _ _ j h67⟩

/-- The second stretch: true only if the conjunction so far is true and arguments 8 and 14 have no infinite entry. -/
theorem part2_true (x8 : FVec Ideal S128x128 .f32) (x9 x10 x11 x12 x13 : FVec Ideal S128 .f32)
    (x14 : FVec Ideal S128x64 .f32) (x15 : FVec Ideal S64 .f32) (v33 : IVec S_ 1) (j : S_.Idx)
    (h : fn_part2 (F := Ideal) x8 x9 x10 x11 x12 x13 x14 x15 v33 j = 1#1) :
    v33 j = 1#1 ∧ (∀ i, x8 i ≠ ⊥ ∧ x8 i ≠ ⊤) ∧ ∀ i, x14 i ≠ ⊥ ∧ x14 i ≠ ⊤ := by
  dsimp only [fn_part2] at h
  obtain ⟨h48, f14⟩ := part3_true _ _ _ _ _ _ _ j h
  obtain ⟨h33, h37⟩ := IntOp.andi_eq_one.1 (IntOp.andi_eq_one.1 (IntOp.andi_eq_one.1 h48).1).1
  exact ⟨h33, finite_of_all x8 _ _ _ _ j h37, f14⟩

/-- The first stretch: it adds four vectors to the conjunction and hands it on. -/
theorem part1_true (x5 x6 x7 : FVec Ideal S128 .f32) (x8 : FVec Ideal S128x128 .f32)
    (x9 x10 x11 x12 x13 : FVec Ideal S128 .f32) (x14 : FVec Ideal S128x64 .f32) (x15 : FVec Ideal S64 .f32)
    (v13 : IVec S_ 1) (v16 : IVec S128 1) (j : S_.Idx)
    (h : fn_part1 (F := Ideal) x5 x6 x7 x8 x9 x10 x11 x12 x13 x14 x15 v13 v16 j = 1#1) :
    v13 j = 1#1 ∧ (∀ i, x8 i ≠ ⊥ ∧ x8 i ≠ ⊤) ∧ ∀ i, x14 i ≠ ⊥ ∧ x14 i ≠ ⊤ := by
  dsimp only [fn_part1] at h
  obtain ⟨h33, f8, f14⟩ := part2_true _ _ _ _ _ _ _ _ _ j h
  exact ⟨(IntOp.andi_eq_one.1 (IntOp.andi_eq_one.1 (IntOp.andi_eq_one.1 (IntOp.andi_eq_one.1 h33).1).1).1).1, f8, f14⟩

/-- If the precondition is true, the node features (argument 0) and the three weight matrices (arguments 2, 8, 14)
    have no infinite entry. -/
theorem finite_of_pre (x0 : FVec Ideal S50000x128 .f32) (x1 : IVec S2x800000 32) (x2 : FVec Ideal S128x128 .f32)
    (x3 x4 x5 x6 x7 : FVec Ideal S128 .f32) (x8 : FVec Ideal S128x128 .f32) (x9 x10 x11 x12 x13 : FVec Ideal S128 .f32)
    (x14 : FVec Ideal S128x64 .f32) (x15 : FVec Ideal S64 .f32)
    (h : Cert.Pre_finite_inputs.fn (F := Ideal) x0 x1 x2 x3 x4 x5 x6 x7 x8 x9 x10 x11 x12 x13 x14 x15 = (fun _ => 1#1)) :
    (∀ i, x0 i ≠ ⊥ ∧ x0 i ≠ ⊤) ∧ (∀ i, x2 i ≠ ⊥ ∧ x2 i ≠ ⊤) ∧ (∀ i, x8 i ≠ ⊥ ∧ x8 i ≠ ⊤)
      ∧ (∀ i, x14 i ≠ ⊥ ∧ x14 i ≠ ⊤) := by
  have h0 : Cert.Pre_finite_inputs.fn (F := Ideal) x0 x1 x2 x3 x4 x5 x6 x7 x8 x9 x10 x11 x12 x13 x14 x15 ix0 = 1#1 :=
    congrFun h ix0
  dsimp only [Cert.Pre_finite_inputs.fn] at h0
  obtain ⟨h13, f8, f14⟩ := part1_true _ _ _ _ _ _ _ _ _ _ _ _ _ ix0 h0
  obtain ⟨h3, h7⟩ := IntOp.andi_eq_one.1 (IntOp.andi_eq_one.1 h13).1
  exact ⟨finite_of_all x0 _ _ _ _ ix0 h3, finite_of_all x2 _ _ _ _ ix0 h7, f8, f14⟩

end Walk

end Cert.Proof.FiniteInputs
-- ==== Proof.lean ====
/-
  A three-layer graph convolution computed two ways, equal on the extended reals.

  The kernel program aggregates each layer's features over the graph first (a gather of rows along the edges' source
  nodes, a scaling by the edge weight, a scatter-add onto the target nodes: host operations) and multiplies by the
  layer's weight matrix after, inside a dense kernel that also adds the bias, normalises and applies `y · σ(y)`; the
  reference multiplies first and aggregates after.  Both are linear in the features, so over the reals the two orders
  agree by distributivity.  On the extended reals distributivity can fail, and a hidden layer's output can be `⊤` (the
  inverse deviation `rsqrt (v + eps)` is `⊤` at `v = -eps`, a finite input); but it is never `⊥`, the edge weights lie
  in `[0, ∞)` whatever the edge list holds, and the weight matrices are real, which is exactly what the exchange of
  the two sums needs (Proof/LibExtSums.lean, Proof/LayerOrder.lean).  So the claim holds under finiteness of the
  inputs alone, of which only the features' and the three matrices' is used.

  The pieces: the kernel program's run with its result named and read back to the arguments (Proof/KernelRun.lean,
  Proof/KernelHost.lean over the three regions' values, Proof/RegionValue.lean); the reference's run and its result one
  layer at a time (Proof/RunPatched.lean, Proof/ReadPatched.lean, Proof/RefValue.lean, Proof/RefValue3.lean,
  Proof/Compose.lean); the edge list's bookkeeping, one term on both sides (Proof/Columns.lean), with weights in
  `[0, ∞)` (Proof/EdgeWeight.lean); finiteness read out of the precondition (Proof/FiniteInputs.lean).
-/
import proofs.«115181_j44435731644444_1_alg».proof.Defs
import proofs.«115181_j44435731644444_1_alg».proof.Proof.Gen.Kernel
import proofs.«115181_j44435731644444_1_alg».proof.Proof.Gen.Kernel.Skeleton
import proofs.«115181_j44435731644444_1_alg».proof.Proof.Gen.Kernel.Launch
import proofs.«115181_j44435731644444_1_alg».proof.Proof.Gen.Kernel.Points
import proofs.«115181_j44435731644444_1_alg».proof.Proof.Gen.Kernel.Frame
import proofs.«115181_j44435731644444_1_alg».proof.Proof.Gen.KernelIdeal
import proofs.«115181_j44435731644444_1_alg».proof.Proof.Gen.KernelIdeal.Skeleton
import proofs.«115181_j44435731644444_1_alg».proof.Proof.Gen.KernelIdeal.Launch
import proofs.«115181_j44435731644444_1_alg».proof.Proof.Gen.KernelIdeal.Points
import proofs.«115181_j44435731644444_1_alg».proof.Proof.Gen.KernelIdeal.Frame
import proofs.«115181_j44435731644444_1_alg».proof.Proof.Gen.ReferenceIdeal
import proofs.«115181_j44435731644444_1_alg».proof.Proof.Gen.Pre_finite_inputs
import proofs.«115181_j44435731644444_1_alg».proof.Proof.RunPatched
import proofs.«115181_j44435731644444_1_alg».proof.Proof.ReadPatched
import proofs.«115181_j44435731644444_1_alg».proof.Proof.RegionValue
import proofs.«115181_j44435731644444_1_alg».proof.Proof.KernelRun
import proofs.«115181_j44435731644444_1_alg».proof.Proof.KernelHost
import proofs.«115181_j44435731644444_1_alg».proof.Proof.Columns
import proofs.«115181_j44435731644444_1_alg».proof.Proof.Compose
import proofs.«115181_j44435731644444_1_alg».proof.Proof.EdgeWeight
import proofs.«115181_j44435731644444_1_alg».proof.Proof.FiniteInputs
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing: its ledger is empty. -/
theorem preserves : Cert.preserves_Kernel_KernelIdeal := trivial

/-- From memories agreeing on the arguments both programs end with the same result array: the kernel's is the network
    with the neighbourhood sum taken first, the reference's the network with the product taken first, over the same
    columns and edge weights, and the two orders agree for finite features and matrices. -/
theorem algebraic : Cert.algebraic_KernelIdeal_ReferenceIdeal := by
  intro m ρ m' ρ' hpre hagree
  refine ⟨fun c => Cert.KernelIdeal.Gen.W8 m ρ c (Proc.devRef .tc Cert.KernelIdeal.main_v82),
    Cert.KernelIdeal.RunValue.run_value m ρ, ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v112_eq]
  obtain ⟨a0, a1, a2, a3, a4, a5, a6, a7, a8, a9, a10, a11, a12, a13, a14, a15⟩ := hagree c
  rw [a0, a1, a2, a3, a4, a5, a6, a7, a8, a9, a10, a11, a12, a13, a14, a15]
  obtain ⟨hx, hW1, hW2, hW3⟩ := Cert.Proof.FiniteInputs.finite_of_pre _ _ _ _ _ _ _ _ _ _ _ _ _ _ _ _ (hpre c)
  show _ = Cert.KernelIdeal.Gen.W8 m ρ c (Proc.devRef .tc Cert.KernelIdeal.main_v82)
  rw [Cert.KernelIdeal.RunValue.kernel_value m ρ c Cert.KernelIdeal.RegionValue.region0
    Cert.KernelIdeal.RegionValue.region1 Cert.KernelIdeal.RegionValue.region2,
    Cert.Proof.Columns.srcCol_eq, Cert.Proof.Columns.dstCol_eq, Cert.Proof.Columns.edgeW_eq]
  exact (Cert.ReferenceIdeal.Compose.kerOut_eq_ref _ _ _ _ _ _ _ _ _ _ _ _ _ _ _ _
    (fun e => Cert.ReferenceIdeal.EdgeWeight.edge_weight_range _ e) hx hW1 hW2 hW3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
